-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1250000 : Shape := ⟨2, ![2, 1250000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg6 : FVec F S64 .f32) (main_arg7 : FVec F S64x5 .f32) (main_arg8 : FVec F S5 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x5 .f32 := Host.absf main_arg7
  let main_cst_8 : FVec F S_ .f32 := constant S_ .f32 0x7F800000#32
  let main_v25 : FVec F S64x5 .f32 := broadcastInDim S64x5 ![] bcast_S_S64x5 main_cst_8
  let main_v26 : IVec S64x5 1 := cmpf .olt main_v24 main_v25
  let main_c_9 : IVec S_ 1 := constantI S_ 1 1#1
  let main_v27 : IVec S_ 1 := (fun x v => Host.reduce IntOp.andi x v reducesTo_S64x5_S_d0_1 h_S_) main_v26 main_c_9
  let main_v28 : IVec S_ 1 := andi main_v23 main_v27
  let main_v29 : FVec F S5 .f32 := Host.absf main_arg8
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000x3 .f32) (main_arg1 : IVec S2x1250000 32) (main_arg2 : IVec S100000 32) (main_arg3 : FVec F S3x64 .f32) (main_arg4 : FVec F S64 .f32) (main_arg5 : FVec F S64x64 .f32) (main_arg6 : FVec F S64 .f32) (main_arg7 : FVec F S64x5 .f32) (main_arg8 : FVec F S5 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x3 : Shape := ⟨2, ![100000, 3]⟩
abbrev S2x1250000 : Shape := ⟨2, ![2, 1250000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S100000x1 : Shape := ⟨2, ![100000, 1]⟩
abbrev S100000x64 : Shape := ⟨2, ![100000, 64]⟩
abbrev S10000x3 : Shape := ⟨2, ![10000, 3]⟩
abbrev S10000x64 : Shape := ⟨2, ![10000, 64]⟩
abbrev S1250000x64 : Shape := ⟨2, ![1250000, 64]⟩
abbrev S1x64 : Shape := ⟨2, ![1, 64]⟩
abbrev S5000x64 : Shape := ⟨2, ![5000, 64]⟩
abbrev S5000x1 : Shape := ⟨2, ![5000, 1]⟩
abbrev S512x64 : Shape := ⟨2, ![512, 64]⟩
abbrev S512 : Shape := ⟨1, ![512]⟩
abbrev S512x1 : Shape := ⟨2, ![512, 1]⟩
abbrev S1x5 : Shape := ⟨2, ![1, 5]⟩
abbrev S512x5 : Shape := ⟨2, ![512, 5]⟩

abbrev nBuf : Space → Nat
  | .hbm => 103
  | .vmem => 32
  | .smem => 0
  | _ => 0

abbrev bufTy : (tb : Table) → Fin (tcTables nBuf tb) → BufTy
  | .hbm, ⟨0, _⟩ => ⟨S100000x3, .f32⟩
  | .hbm, ⟨1, _⟩ => ⟨S2x1250000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x5, .f32⟩
  | .hbm, ⟨8, _⟩ => ⟨S5, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .f32⟩
  | .hbm, ⟨14, _⟩ => ⟨S1250000, .f32⟩
  | .hbm, ⟨15, _⟩ => ⟨S_, .f32⟩
  | .hbm, ⟨16, _⟩ => ⟨S100000, .f32⟩
  | .hbm, ⟨17, _⟩ => ⟨S1250000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000, .f32⟩
  | .hbm, ⟨44, _⟩ => ⟨S1250000, .f32⟩
  | .hbm, ⟨45, _⟩ => ⟨S100000, .f32⟩
  | .hbm, ⟨46, _⟩ => ⟨S100000x1, .f32⟩
  | .hbm, ⟨47, _⟩ => ⟨S100000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S1250000x1, .f32⟩
  | .hbm, ⟨58, _⟩ => ⟨S1250000x64, .f32⟩
  | .hbm, ⟨59, _⟩ => ⟨S1250000x64, .f32⟩
  | .hbm, ⟨60, _⟩ => ⟨S_, .f32⟩
  | .hbm, ⟨61, _⟩ => ⟨S100000x64, .f32⟩
  | .hbm, ⟨62, _⟩ => ⟨S1250000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1250000, .i32⟩
  | .hbm, ⟨69, _⟩ => ⟨S1250000, .i1⟩
  | .hbm, ⟨70, _⟩ => ⟨S_, .i32⟩
  | .hbm, ⟨71, _⟩ => ⟨S1250000, .i32⟩
  | .hbm, ⟨72, _⟩ => ⟨S1250000, .i32⟩
  | .hbm, ⟨73, _⟩ => ⟨S1250000, .i32⟩
  | .hbm, ⟨74, _⟩ => ⟨S1250000x1, .i32⟩
  | .hbm, ⟨75, _⟩ => ⟨S1250000x64, .f32⟩
  | .hbm, ⟨76, _⟩ => ⟨S1250000x1, .f32⟩
  | .hbm, ⟨77, _⟩ => ⟨S1250000x64, .f32⟩
  | .hbm, ⟨78, _⟩ => ⟨S1250000x64, .f32⟩
  | .hbm, ⟨79, _⟩ => ⟨S_, .f32⟩
  | .hbm, ⟨80, _⟩ => ⟨S100000x64, .f32⟩
  | .hbm, ⟨81, _⟩ => ⟨S1250000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S_, .f32⟩
  | .hbm, ⟨86, _⟩ => ⟨S512x64, .f32⟩
  | .hbm, ⟨87, _⟩ => ⟨S100000x1, .i32⟩
  | .hbm, ⟨88, _⟩ => ⟨S512x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S512, .f32⟩
  | .hbm, ⟨93, _⟩ => ⟨S100000x1, .i32⟩
  | .hbm, ⟨94, _⟩ => ⟨S512, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S512x1, .f32⟩
  | .hbm, ⟨99, _⟩ => ⟨S512x64, .f32⟩
  | .hbm, ⟨100, _⟩ => ⟨S512x64, .f32⟩
  | .hbm, ⟨101, _⟩ => ⟨S1x5, .f32⟩
  | .hbm, ⟨102, _⟩ => ⟨S512x5, .f32⟩
  | .local _ .vmem, ⟨0, _⟩ => ⟨S10000x3, .f32⟩
  | .local _ .vmem, ⟨1, _⟩ => ⟨S10000x3, .f32⟩
  | .local _ .vmem, ⟨2, _⟩ => ⟨S3x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S512x64, .f32⟩
  | .local _ .vmem, ⟨29, _⟩ => ⟨S64x5, .f32⟩
  | .local _ .vmem, ⟨30, _⟩ => ⟨S1x5, .f32⟩
  | .local _ .vmem, ⟨31, _⟩ => ⟨S512x5, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x5 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x5 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x5 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S10000x64_S10000x64_0_0 : ∀ a, (![0, 0] : Fin 2 → Nat) a + S10000x64.size a ≤ S10000x64.size a
  h_S10000x64 : 0 < S10000x64.numel
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S5_S1x5 : S5.ShapeCasts S1x5
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S512x5 : S1x5.Broadcasts S512x5
  inb_S512x5_S512x5_0_0 : ∀ a, (![0, 0] : Fin 2 → Nat) a + S512x5.size a ≤ S512x5.size a
  h_S512x5 : 0 < S512x5.numel
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S10000x3_S3x64_S10000x64_1_0_0_1_n_n_wf : DotDims.WF S10000x3 S3x64 S10000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x5_S512x5_1_0_0_1_n_n_wf : DotDims.WF S512x64 S64x5 S512x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x5.size a ≤ S64x5.size a
  hwx4_1 : ∀ i : grid4.Coords, EltTy.bits .f32 = 32 ∨ (Rect.block (s := S64x5) S64x5.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x5.size a ≤ S1x5.size a
  hwx4_2 : ∀ i : grid4.Coords, EltTy.bits .f32 = 32 ∨ (Rect.block (s := S1x5) S1x5.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x5.size a ≤ S512x5.size a
  hwx4_3 : ∀ i : grid4.Coords, EltTy.bits .f32 = 32 ∨ (Rect.block (s := S512x5) S512x5.size (cc4_transform_3 i) (hinb4_3 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x5_S512x5_1_0_0_1_n_n : DotDims S512x64 S64x5 S512x5 where
  lhsContracting := [1]
  rhsContracting := [0]
  lhsNonContracting := [0]
  rhsNonContracting := [1]
  lhsBatch := []
  rhsBatch := []
  wf := dot_S512x64_S64x5_S512x5_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v73) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x5.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x5.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S512x5.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x1250000 : Shape := ⟨2, ![2, 1250000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S100000x64 : Shape := ⟨2, ![100000, 64]⟩
abbrev S1250000x64 : Shape := ⟨2, ![1250000, 64]⟩
abbrev S100000x1 : Shape := ⟨2, ![100000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x5 : Shape := ⟨2, ![512, 5]⟩
abbrev S1x5 : Shape := ⟨2, ![1, 5]⟩

abbrev nBuf : Space → Nat
  | .hbm => 137
  | .vmem => 0
  | .smem => 0
  | _ => 0

abbrev hbmTy0_0 (i : Nat) : BufTy := match i % 128 with
  | 0 => ⟨S100000x3, .f32⟩
  | 1 => ⟨S2x1250000, .i32⟩
  | 2 => ⟨S100000, .i32⟩
  | 3 => ⟨S3x64, .f32⟩
  | 4 => ⟨S64, .f32⟩
  | 5 => ⟨S64x64, .f32⟩
  | 6 => ⟨S64, .f32⟩
  | 7 => ⟨S64x5, .f32⟩
  | 8 => ⟨S5, .f32⟩
  | 9 => ⟨S1x1250000, .i32⟩
  | 10 => ⟨S1250000, .i32⟩
  | 11 => ⟨S1x1250000, .i32⟩
  | 12 => ⟨S1250000, .i32⟩
  | 13 => ⟨S_, .f32⟩
  | 14 => ⟨S1250000, .f32⟩
  | 15 => ⟨S_, .f32⟩
  | 16 => ⟨S100000, .f32⟩
  | 17 => ⟨S1250000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x64, .f32⟩
  | 27 => ⟨S_, .i32⟩
  | 28 => ⟨S1250000, .i32⟩
  | 29 => ⟨S1250000, .i1⟩
  | 30 => ⟨S_, .i32⟩
  | 31 => ⟨S1250000, .i32⟩
  | 32 => ⟨S1250000, .i32⟩
  | 33 => ⟨S1250000, .i32⟩
  | 34 => ⟨S1250000x1, .i32⟩
  | 35 => ⟨S1250000, .f32⟩
  | 36 => ⟨S_, .i32⟩
  | 37 => ⟨S1250000, .i32⟩
  | 38 => ⟨S1250000, .i1⟩
  | 39 => ⟨S_, .i32⟩
  | 40 => ⟨S1250000, .i32⟩
  | 41 => ⟨S1250000, .i32⟩
  | 42 => ⟨S1250000, .i32⟩
  | 43 => ⟨S1250000x1, .i32⟩
  | 44 => ⟨S1250000, .f32⟩
  | 45 => ⟨S1250000, .f32⟩
  | 46 => ⟨S_, .i32⟩
  | 47 => ⟨S1250000, .i32⟩
  | 48 => ⟨S1250000, .i1⟩
  | 49 => ⟨S_, .i32⟩
  | 50 => ⟨S1250000, .i32⟩
  | 51 => ⟨S1250000, .i32⟩
  | 52 => ⟨S1250000, .i32⟩
  | 53 => ⟨S1250000x1, .i32⟩
  | 54 => ⟨S1250000x64, .f32⟩
  | 55 => ⟨S1250000x1, .f32⟩
  | 56 => ⟨S1250000x64, .f32⟩
  | 57 => ⟨S1250000x64, .f32⟩
  | 58 => ⟨S_, .f32⟩
  | 59 => ⟨S100000x64, .f32⟩
  | 60 => ⟨S1250000x1, .i32⟩
  | 61 => ⟨S100000x64, .f32⟩
  | 62 => ⟨S100000, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1250000, .i32⟩
  | 76 => ⟨S1250000, .i1⟩
  | 77 => ⟨S_, .i32⟩
  | 78 => ⟨S1250000, .i32⟩
  | 79 => ⟨S1250000, .i32⟩
  | 80 => ⟨S1250000, .i32⟩
  | 81 => ⟨S1250000x1, .i32⟩
  | 82 => ⟨S1250000, .f32⟩
  | 83 => ⟨S_, .i32⟩
  | 84 => ⟨S1250000, .i32⟩
  | 85 => ⟨S1250000, .i1⟩
  | 86 => ⟨S_, .i32⟩
  | 87 => ⟨S1250000, .i32⟩
  | 88 => ⟨S1250000, .i32⟩
  | 89 => ⟨S1250000, .i32⟩
  | 90 => ⟨S1250000x1, .i32⟩
  | 91 => ⟨S1250000, .f32⟩
  | 92 => ⟨S1250000, .f32⟩
  | 93 => ⟨S_, .i32⟩
  | 94 => ⟨S1250000, .i32⟩
  | 95 => ⟨S1250000, .i1⟩
  | 96 => ⟨S_, .i32⟩
  | 97 => ⟨S1250000, .i32⟩
  | 98 => ⟨S1250000, .i32⟩
  | 99 => ⟨S1250000, .i32⟩
  | 100 => ⟨S1250000x1, .i32⟩
  | 101 => ⟨S1250000x64, .f32⟩
  | 102 => ⟨S1250000x1, .f32⟩
  | 103 => ⟨S1250000x64, .f32⟩
  | 104 => ⟨S1250000x64, .f32⟩
  | 105 => ⟨S_, .f32⟩
  | 106 => ⟨S100000x64, .f32⟩
  | 107 => ⟨S1250000x1, .i32⟩
  | 108 => ⟨S100000x64, .f32⟩
  | 109 => ⟨S100000, .f32⟩
  | 110 => ⟨S100000x1, .f32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S512x64, .f32⟩
  | 119 => ⟨S100000x1, .i32⟩
  | 120 => ⟨S512x64, .f32⟩
  | 121 => ⟨S_, .f32⟩
  | 122 => ⟨S100000, .f32⟩
  | 123 => ⟨S_, .f32⟩
  | 124 => ⟨S512, .f32⟩
  | 125 => ⟨S100000x1, .i32⟩
  | 126 => ⟨S512, .f32⟩
  | 127 => ⟨S_, .f32⟩
  | _ => ⟨S100000x3, .f32⟩

abbrev hbmTy0_1 (i : Nat) : BufTy := match i % 128 with
  | 0 => ⟨S512, .f32⟩
  | 1 => ⟨S512, .f32⟩
  | 2 => ⟨S512x1, .f32⟩
  | 3 => ⟨S512x64, .f32⟩
  | 4 => ⟨S512x64, .f32⟩
  | 5 => ⟨S512x5, .f32⟩
  | 6 => ⟨S1x5, .f32⟩
  | 7 => ⟨S512x5, .f32⟩
  | 8 => ⟨S512x5, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_cst : Ref sig .tc := ⟨.hbm, 70, rfl⟩
abbrev main_call0_v0 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_19 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S5_S1x5_1 : S5.BroadcastsInDim S1x5 (![1] : Fin 1 → Fin S1x5.rank)
  bcast_S1x5_S512x5_0_1 : S1x5.BroadcastsInDim S512x5 (![0, 1] : Fin 2 → Fin S512x5.rank)
  scatter_S100000_S1250000x1_S1250000_n_0_0_1_wf : ScatterDims.WF S100000 S1250000x1 S1250000 [] [0] [0] 1
  dot_S100000x3_S3x64_S100000x64_1_0_0_1_n_n_wf : DotDims.WF S100000x3 S3x64 S100000x64 [1] [0] [0] [1] [] []
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x5_S512x5_1_0_0_1_n_n_wf : DotDims.WF S512x64 S64x5 S512x5 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x5_S512x5_1_0_0_1_n_n : DotDims S512x64 S64x5 S512x5 where
  lhsContracting := [1]
  rhsContracting := [0]
  lhsNonContracting := [0]
  rhsNonContracting := [1]
  lhsBatch := []
  rhsBatch := []
  wf := dot_S512x64_S64x5_S512x5_1_0_0_1_n_n_wf

class Facts : Prop extends Facts₀ where

variable [Facts]
-- ==== Proof.KernelRun.lean ====
/-
  The idealized kernel's run with its result named.

  @main is nine segments: four stretches of host operations and five pallas regions.  The buffer contents at each
  segment boundary are a fold from the launch memory: a host stretch applies its operations, a region leaves each of its
  arrays at what its write-backs leave and every other buffer as it found it.  Every weakly fair execution terminates with
  every unscoped buffer at the last boundary's contents; read at the result buffer that is the value of the fold there, and
  read at an argument it is the launch contents.
-/
import proofs.«106451_j44195213475900_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.Stages.lean ====
/-
  The host stretches of the graph convolution, each as one named function.

  Around its five pallas calls the kernel's @main computes, in plain array operations: the two rows of the edge list
  (sources and destinations); the destination degrees (a scatter-add of ones, plus one for the self loop) and their inverse
  square roots d; the per-edge normaliser d[src] · d[dst] (negative node numbers wrapped once, as jnp's indexing does);
  the self-loop scale d · d; for a feature matrix h the aggregate  Σ_{e : dst(e) = v} h[src(e)] · norm(e)  (a row gather, a
  product and a scatter-add into zeros); and the mean pool over graph ids (a scatter-add of the rows, divided by the
  count clamped below at one).  The reference spells the same operations; naming each stretch once lets both programs be
  compared stretch by stretch without opening a gather or a scatter.
-/
import proofs.«106451_j44195213475900_1_alg».proof.KernelIdeal
import proofs.«106451_j44195213475900_1_alg».proof.Proof.Gen.KernelIdeal

noncomputable section

namespace Cert.KernelIdeal.Stage

open Cert.KernelIdeal Cert.KernelIdeal.Facts₀ Idealize.ShloMosaic

variable {F : FTy → Type} [FloatOps F]

/-- The edge list's row of source nodes. -/
def edgeSrc (ei : (⟨S2x1250000, .i32⟩ : BufTy).Contents (Elt F)) : (⟨S1250000, .i32⟩ : BufTy).Contents (Elt F) :=
  shapeCast _ (extractStridedSlice S1x1250000 ![0, 0] ei slices_S2x1250000_S1x1250000_0_0) shapeCasts_S1x1250000_S1250000

/-- The edge list's row of destination nodes. -/
def edgeDst (ei : (⟨S2x1250000, .i32⟩ : BufTy).Contents (Elt F)) : (⟨S1250000, .i32⟩ : BufTy).Contents (Elt F) :=
  shapeCast _ (extractStridedSlice S1x1250000 ![1, 0] ei slices_S2x1250000_S1x1250000_1_0) shapeCasts_S1x1250000_S1250000

/-- Node numbers as a column of gather indices, a negative number wrapped once by the node count. -/
def wrapCol (v : (⟨S1250000, .i32⟩ : BufTy).Contents (Elt F)) : (⟨S1250000x1, .i32⟩ : BufTy).Contents (Elt F) :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

/-- Node numbers as a column of scatter indices, as they are. -/
def plainCol (v : (⟨S1250000, .i32⟩ : BufTy).Contents (Elt F)) : (⟨S1250000x1, .i32⟩ : BufTy).Contents (Elt F) :=
  broadcastInDim S1250000x1 ![0] bcast_S1250000_S1250000x1_0 v

/-- d = 1 / sqrt(in-degree + 1), per node. -/
def degInvSqrt (dst : (⟨S1250000, .i32⟩ : BufTy).Contents (Elt F)) : (⟨S100000, .f32⟩ : BufTy).Contents (Elt F) :=
  Host.divf (broadcastInDim S100000 ![] bcast_S_S100000 (constant S_ .f32 0x3F800000#32))
    (Host.sqrt (addf
      (Host.scatterAdd scatter_S100000_S1250000x1_S1250000_n_0_0_1 (broadcastInDim S100000 ![] bcast_S_S100000 (constant S_ .f32 0x00000000#32))
        (plainCol dst) (broadcastInDim S1250000 ![] bcast_S_S1250000 (constant S_ .f32 0x3F800000#32)))
      (broadcastInDim S100000 ![] bcast_S_S100000 (constant S_ .f32 0x3F800000#32))))

/-- The per-edge normaliser d[src] · d[dst]. -/
def edgeNorm (src dst : (⟨S1250000, .i32⟩ : BufTy).Contents (Elt F)) : (⟨S1250000, .f32⟩ : BufTy).Contents (Elt F) :=
  mulf (Host.gather gather_S100000_S1250000x1_S1250000_n_0_n_n_0_1_1 (degInvSqrt dst) (wrapCol src))
    (Host.gather gather_S100000_S1250000x1_S1250000_n_0_n_n_0_1_1 (degInvSqrt dst) (wrapCol dst))

/-- The self-loop scale d · d, per node. -/
def selfScale (dst : (⟨S1250000, .i32⟩ : BufTy).Contents (Elt F)) : (⟨S100000, .f32⟩ : BufTy).Contents (Elt F) :=
  mulf (degInvSqrt dst) (degInvSqrt dst)

/-- The neighbourhood aggregate of a feature matrix: rows gathered at the sources, scaled by the edge normaliser,
    scatter-added at the destinations into zeros. -/
def aggregate (src dst : (⟨S1250000, .i32⟩ : BufTy).Contents (Elt F)) (nrm : (⟨S1250000, .f32⟩ : BufTy).Contents (Elt F))
    (h : (⟨S100000x64, .f32⟩ : BufTy).Contents (Elt F)) : (⟨S100000x64, .f32⟩ : BufTy).Contents (Elt F) :=
  Host.scatterAdd scatter_S100000x64_S1250000x1_S1250000x64_1_0_0_1
    (broadcastInDim S100000x64 ![] bcast_S_S100000x64 (constant S_ .f32 0x00000000#32)) (plainCol dst)
    (mulf (Host.gather gather_S100000x64_S1250000x1_S1250000x64_1_0_n_n_0_1_164 h (wrapCol src))
      (broadcastInDim S1250000x64 ![0, 1] bcast_S1250000x1_S1250000x64_0_1
        (broadcastInDim S1250000x1 ![0] bcast_S1250000_S1250000x1_0 nrm)))

/-- The mean of the rows of each graph: the rows scatter-added by graph id, divided by the graph's node count clamped
    below at one. -/
def meanPool (batch : (⟨S100000, .i32⟩ : BufTy).Contents (Elt F)) (h : (⟨S100000x64, .f32⟩ : BufTy).Contents (Elt F)) :
    (⟨S512x64, .f32⟩ : BufTy).Contents (Elt F) :=
  Host.divf
    (Host.scatterAdd scatter_S512x64_S100000x1_S100000x64_1_0_0_1 (broadcastInDim S512x64 ![] bcast_S_S512x64 (constant S_ .f32 0x00000000#32))
      (broadcastInDim S100000x1 ![0] bcast_S100000_S100000x1_0 batch) h)
    (broadcastInDim S512x64 ![0, 1] bcast_S512x1_S512x64_0_1 (broadcastInDim S512x1 ![0] bcast_S512_S512x1_0
      (maximumf
        (Host.scatterAdd scatter_S512_S100000x1_S100000_n_0_0_1 (broadcastInDim S512 ![] bcast_S_S512 (constant S_ .f32 0x00000000#32))
          (broadcastInDim S100000x1 ![0] bcast_S100000_S100000x1_0 batch) (broadcastInDim S100000 ![] bcast_S_S100000 (constant S_ .f32 0x3F800000#32)))
        (broadcastInDim S512 ![] bcast_S_S512 (constant S_ .f32 0x3F800000#32)))))

end Cert.KernelIdeal.Stage

end
-- ==== Proof.KernelKept.lean ====
/-
  Buffers that a stretch of the run leaves alone.

  The buffer contents at the boundaries of @main's nine segments are a fold from the launch memory.  A host stretch
  changes only the buffers its operations write; a pallas region changes only its output array (an input window's array is
  read, never written).  So a buffer read late in the program holds what the segment that last wrote it left there: the
  lemmas below walk the fold back, one segment at a time, for each buffer a later segment reads.
-/
import proofs.«106451_j44195213475900_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_v1_W1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W2_v3_W1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W2_v27_W1 (c : Dev nD) : W2 m ρ c (Proc.devRef .tc main_v27) = W1 m ρ c (Proc.devRef .tc main_v27) :=
  calc W2 m ρ c (Proc.devRef .tc main_v27)
    _ = W1 m ρ c (Proc.devRef .tc main_v27) := W2_of_ne m ρ c main_v27 (by decide)

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_v30_W2 (c : Dev nD) : W3 m ρ c (Proc.devRef .tc main_v30) = W2 m ρ c (Proc.devRef .tc main_v30) :=
  calc W3 m ρ c (Proc.devRef .tc main_v30)
    _ = W2 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W3_v29_W1 (c : Dev nD) : W3 m ρ c (Proc.devRef .tc main_v29) = W1 m ρ c (Proc.devRef .tc main_v29) :=
  calc W3 m ρ c (Proc.devRef .tc main_v29)
    _ = W2 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v29) := W2_of_ne m ρ c main_v29 (by decide)

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_v1_W1 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W5_v3_W1 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W5_v27_W1 (c : Dev nD) : W5 m ρ c (Proc.devRef .tc main_v27) = W1 m ρ c (Proc.devRef .tc main_v27) :=
  calc W5 m ρ c (Proc.devRef .tc main_v27)
    _ = W4 m ρ c (Proc.devRef .tc main_v27) := W5_of_ne m ρ c main_v27 (by decide)
    _ = W3 m ρ c (Proc.devRef .tc main_v27) := W4_of_ne m ρ c main_v27 (by decide)
    _ = W2 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v27) := W2_of_ne m ρ c main_v27 (by decide)

theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W6_v46_W5 (c : Dev nD) : W6 m ρ c (Proc.devRef .tc main_v46) = W5 m ρ c (Proc.devRef .tc main_v46) :=
  calc W6 m ρ c (Proc.devRef .tc main_v46)
    _ = W5 m ρ c (Proc.devRef .tc main_v46) := StableHlo.after_of_forall_not_mem (b := Proc.devRef .tc main_v46) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_v29_W1 (c : Dev nD) : W6 m ρ c (Proc.devRef .tc main_v29) = W1 m ρ c (Proc.devRef .tc main_v29) :=
  calc W6 m ρ c (Proc.devRef .tc main_v29)
    _ = W5 m ρ c (Proc.devRef .tc main_v29) := StableHlo.after_of_forall_not_mem (b := Proc.devRef .tc main_v29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v29) := W5_of_ne m ρ c main_v29 (by decide)
    _ = W3 m ρ c (Proc.devRef .tc main_v29) := (W4_arr m ρ c 2).trans (((dat1 (V3 m ρ) c).arrAt_in 2 rfl _).trans (A_eq1 (V3 m ρ) c 2))
    _ = W2 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v29) := W2_of_ne m ρ c main_v29 (by decide)

theorem W7_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

end Cert.KernelIdeal.Kept

end
-- ==== Proof.KernelHost.lean ====
/-
  What the kernel's host stretches write, by name.

  Each of @main's four host stretches is read off the fold of its operations: the buffers it writes hold the named stage
  functions (the edge rows, the per-edge normaliser, the self-loop scale as a column, a layer's neighbourhood aggregate,
  a bias as a one-row matrix, the mean pool) of what the stretch found in the buffers it reads.
-/
import proofs.«106451_j44195213475900_1_alg».proof.Proof.Gen.KernelIdeal.Frame
import proofs.«106451_j44195213475900_1_alg».proof.Proof.Stages
import Idealize.ShloMosaic.Lib.StableHlo.Run

set_option maxRecDepth 16384

noncomputable section

namespace Cert.KernelIdeal.HostStretch

open Cert.KernelIdeal Cert.KernelIdeal.Gen Cert.KernelIdeal.Stage
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-! ## Before the first pallas call: the graph's normalisation -/

set_option maxHeartbeats 4000000 in
theorem src_eq (c : Dev nD) : W1 m ρ c (Proc.devRef .tc main_v1) = edgeSrc (m ((c : Thread nD τ).loc main_arg1)) := by
  show StableHlo.after hostOps0 (W0 m ρ c) (Proc.devRef .tc main_v1) = _
  after_results; rfl

set_option maxHeartbeats 4000000 in
theorem dst_eq (c : Dev nD) : W1 m ρ c (Proc.devRef .tc main_v3) = edgeDst (m ((c : Thread nD τ).loc main_arg1)) := by
  show StableHlo.after hostOps0 (W0 m ρ c) (Proc.devRef .tc main_v3) = _
  after_results; rfl

set_option maxHeartbeats 4000000 in
theorem norm_eq (c : Dev nD) : W1 m ρ c (Proc.devRef .tc main_v27)
    = edgeNorm (edgeSrc (m ((c : Thread nD τ).loc main_arg1))) (edgeDst (m ((c : Thread nD τ).loc main_arg1))) := by
  show StableHlo.after hostOps0 (W0 m ρ c) (Proc.devRef .tc main_v27) = _
  after_results; rfl

set_option maxHeartbeats 4000000 in
theorem scale_eq (c : Dev nD) : W1 m ρ c (Proc.devRef .tc main_v29)
    = shapeCast S100000x1 (selfScale (edgeDst (m ((c : Thread nD τ).loc main_arg1)))) shapeCasts_S100000_S100000x1 := by
  show StableHlo.after hostOps0 (W0 m ρ c) (Proc.devRef .tc main_v29) = _
  after_results; rfl

/-! ## Between the first matmul and the first combine: layer 1's aggregate and bias row -/

set_option maxHeartbeats 4000000 in
theorem agg1_eq (c : Dev nD) : W3 m ρ c (Proc.devRef .tc main_v43)
    = aggregate (W2 m ρ c (Proc.devRef .tc main_v1)) (W2 m ρ c (Proc.devRef .tc main_v3)) (W2 m ρ c (Proc.devRef .tc main_v27))
        (W2 m ρ c (Proc.devRef .tc main_v30)) := by
  show StableHlo.after hostOps1 (W2 m ρ c) (Proc.devRef .tc main_v43) = _
  after_results; rfl

set_option maxHeartbeats 4000000 in
theorem bias1_eq (c : Dev nD) : W3 m ρ c (Proc.devRef .tc main_v44)
    = shapeCast S1x64 (W2 m ρ c (Proc.devRef .tc main_arg4)) shapeCasts_S64_S1x64 := by
  show StableHlo.after hostOps1 (W2 m ρ c) (Proc.devRef .tc main_v44) = _
  after_results; rfl

/-! ## Between the second matmul and the second combine: layer 2's aggregate and bias row -/

set_option maxHeartbeats 4000000 in
theorem agg2_eq (c : Dev nD) : W6 m ρ c (Proc.devRef .tc main_v59)
    = aggregate (W5 m ρ c (Proc.devRef .tc main_v1)) (W5 m ρ c (Proc.devRef .tc main_v3)) (W5 m ρ c (Proc.devRef .tc main_v27))
        (W5 m ρ c (Proc.devRef .tc main_v46)) := by
  show StableHlo.after hostOps3 (W5 m ρ c) (Proc.devRef .tc main_v59) = _
  after_results; rfl

set_option maxHeartbeats 4000000 in
theorem bias2_eq (c : Dev nD) : W6 m ρ c (Proc.devRef .tc main_v60)
    = shapeCast S1x64 (W5 m ρ c (Proc.devRef .tc main_arg6)) shapeCasts_S64_S1x64 := by
  show StableHlo.after hostOps3 (W5 m ρ c) (Proc.devRef .tc main_v60) = _
  after_results; rfl

/-! ## Before the last pallas call: the mean pool and the classifier's bias row -/

set_option maxHeartbeats 4000000 in
theorem pool_eq (c : Dev nD) : W8 m ρ c (Proc.devRef .tc main_v73)
    = meanPool (W7 m ρ c (Proc.devRef .tc main_arg2)) (W7 m ρ c (Proc.devRef .tc main_v61)) := by
  show StableHlo.after hostOps4 (W7 m ρ c) (Proc.devRef .tc main_v73) = _
  after_results; rfl

set_option maxHeartbeats 4000000 in
theorem bias3_eq (c : Dev nD) : W8 m ρ c (Proc.devRef .tc main_v74)
    = shapeCast S1x5 (W7 m ρ c (Proc.devRef .tc main_arg8)) shapeCasts_S5_S1x5 := by
  show StableHlo.after hostOps4 (W7 m ρ c) (Proc.devRef .tc main_v74) = _
  after_results; rfl

end Cert.KernelIdeal.HostStretch

end
-- ==== Proof.RefStages.lean ====
/-
  The reference's host stretches are the same named functions.

  The reference computes the edge rows, the per-edge normaliser (once per layer, the same term twice), the self-loop
  scale, each layer's neighbourhood aggregate and the mean pool by the very operations the kernel's host stretches use,
  on its own copies of the shapes and dimension records (equal literal data under other names).  Each of its stages is
  therefore the named stage function of the stages it reads, by unfolding.
-/
import proofs.«106451_j44195213475900_1_alg».proof.Proof.Gen.ReferenceIdeal.Read
import proofs.«106451_j44195213475900_1_alg».proof.Proof.Stages

set_option maxRecDepth 16384

noncomputable section

namespace Cert.RefStage

open Cert.KernelIdeal.Stage Idealize.ShloMosaic

variable {F : FTy → Type} [FloatOps F]

theorem src_eq (x1 : (⟨Cert.ReferenceIdeal.S2x1250000, .i32⟩ : BufTy).Contents (Elt F)) : Cert.ReferenceIdeal.Read.val_main_v1 (F := F) x1 = edgeSrc x1 := rfl
theorem dst_eq (x1 : (⟨Cert.ReferenceIdeal.S2x1250000, .i32⟩ : BufTy).Contents (Elt F)) : Cert.ReferenceIdeal.Read.val_main_v3 (F := F) x1 = edgeDst x1 := rfl
theorem deg_eq (x1 : (⟨Cert.ReferenceIdeal.S2x1250000, .i32⟩ : BufTy).Contents (Elt F)) : Cert.ReferenceIdeal.Read.val_main_v12 (F := F) x1 = degInvSqrt (edgeDst x1) := rfl
theorem norm1_eq (x1 : (⟨Cert.ReferenceIdeal.S2x1250000, .i32⟩ : BufTy).Contents (Elt F)) : Cert.ReferenceIdeal.Read.val_main_v28 (F := F) x1 = edgeNorm (edgeSrc x1) (edgeDst x1) := rfl
theorem norm2_eq (x1 : (⟨Cert.ReferenceIdeal.S2x1250000, .i32⟩ : BufTy).Contents (Elt F)) : Cert.ReferenceIdeal.Read.val_main_v66 (F := F) x1 = edgeNorm (edgeSrc x1) (edgeDst x1) := rfl
theorem scale1_eq (x1 : (⟨Cert.ReferenceIdeal.S2x1250000, .i32⟩ : BufTy).Contents (Elt F)) : Cert.ReferenceIdeal.Read.val_main_v42 (F := F) x1 = selfScale (edgeDst x1) := rfl
theorem scale2_eq (x1 : (⟨Cert.ReferenceIdeal.S2x1250000, .i32⟩ : BufTy).Contents (Elt F)) : Cert.ReferenceIdeal.Read.val_main_v80 (F := F) x1 = selfScale (edgeDst x1) := rfl

theorem agg1_eq (x0 : (⟨Cert.ReferenceIdeal.S100000x3, .f32⟩ : BufTy).Contents (Elt F)) (x1 : (⟨Cert.ReferenceIdeal.S2x1250000, .i32⟩ : BufTy).Contents (Elt F)) (x3 : (⟨Cert.ReferenceIdeal.S3x64, .f32⟩ : BufTy).Contents (Elt F)) :
    Cert.ReferenceIdeal.Read.val_main_v41 (F := F) x0 x1 x3
      = aggregate (edgeSrc x1) (edgeDst x1) (edgeNorm (edgeSrc x1) (edgeDst x1)) (Cert.ReferenceIdeal.Read.val_main_v13 (F := F) x0 x3) := rfl

theorem agg2_eq (x0 : (⟨Cert.ReferenceIdeal.S100000x3, .f32⟩ : BufTy).Contents (Elt F)) (x1 : (⟨Cert.ReferenceIdeal.S2x1250000, .i32⟩ : BufTy).Contents (Elt F)) (x3 : (⟨Cert.ReferenceIdeal.S3x64, .f32⟩ : BufTy).Contents (Elt F)) (x4 : (⟨Cert.ReferenceIdeal.S64, .f32⟩ : BufTy).Contents (Elt F)) (x5 : (⟨Cert.ReferenceIdeal.S64x64, .f32⟩ : BufTy).Contents (Elt F)) :
    Cert.ReferenceIdeal.Read.val_main_v79 (F := F) x0 x1 x3 x4 x5
      = aggregate (edgeSrc x1) (edgeDst x1) (edgeNorm (edgeSrc x1) (edgeDst x1)) (Cert.ReferenceIdeal.Read.val_main_v51 (F := F) x0 x1 x3 x4 x5) := rfl

theorem pool_eq (x0 : (⟨Cert.ReferenceIdeal.S100000x3, .f32⟩ : BufTy).Contents (Elt F)) (x1 : (⟨Cert.ReferenceIdeal.S2x1250000, .i32⟩ : BufTy).Contents (Elt F)) (x2 : (⟨Cert.ReferenceIdeal.S100000, .i32⟩ : BufTy).Contents (Elt F)) (x3 : (⟨Cert.ReferenceIdeal.S3x64, .f32⟩ : BufTy).Contents (Elt F)) (x4 : (⟨Cert.ReferenceIdeal.S64, .f32⟩ : BufTy).Contents (Elt F)) (x5 : (⟨Cert.ReferenceIdeal.S64x64, .f32⟩ : BufTy).Contents (Elt F)) (x6 : (⟨Cert.ReferenceIdeal.S64, .f32⟩ : BufTy).Contents (Elt F)) :
    Cert.ReferenceIdeal.Read.val_main_v99 (F := F) x0 x1 x2 x3 x4 x5 x6 = meanPool x2 (Cert.ReferenceIdeal.Read.val_main_v87 (F := F) x0 x1 x3 x4 x5 x6) := rfl

end Cert.RefStage

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.BlocksMatmul0.lean ====
/-
  Region 0: the first matrix product, by row blocks.

  The region reads the [100000, 3] array in 10 consecutive blocks of 10000 rows, and the [3, 64] matrix whole at every
  point.  At each point the body writes one block of 10000 rows of the result: the product of the point's row block by
  the small matrix, accumulated into zero, so entry (p, q) of the block is  Σ_k a(p, k) · w(k, q)  over the rows p of that
  block alone (`block_entry0`).  Row p of block t is row t·10000 + p of the whole array, the small matrix is the same at
  every point, and the 10 blocks tile the 100000 rows; hence the result array after the region is the product of the
  two whole arrays, entry by entry (`final0`):  out(i, j) = Σ_k A(i, k) · W(k, j)  (`product0`).

  `index_maps0` decides the windows' index maps over the 10 points (block t of the row-blocked arrays is block index
  (t, 0); the small matrix is always block (0, 0)); `written_block0` says what a point writes back is its block of that
  whole-array product; `mem_block0` and `covered0` say every index of the result lies in the block of the point
  ⌊row / 10000⌋.
-/
import proofs.«106451_j44195213475900_1_alg».proof.Proof.Gen.KernelIdeal.Frame
import proofs.«106451_j44195213475900_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- Zero offsets on both axes, however spelt. -/
theorem zero_offsets0 : (![0, 0] : Fin 2 → Nat) = fun _ => 0 := funext fun a => by fin_cases a <;> rfl

/-- The product of the whole arrays: out(i, j) = Σ_k A(i, k) · W(k, j). -/
def product0 (A : S100000x3.Idx → EReal) (W : S3x64.Idx → EReal) : S100000x64.Idx → EReal :=
  fun i => ∑ k : Fin 3, A (ix2 (i 0) k) * W (ix2 k (i 1))

theorem product0_apply (A : S100000x3.Idx → EReal) (W : S3x64.Idx → EReal) (i : S100000x64.Idx) :
    product0 A W i = ∑ k : Fin 3, A (ix2 (i 0) k) * W (ix2 k (i 1)) := rfl

/-- Entry (p, q) of the body's result on one block: row p of the row block against column q of the small matrix
    (rounding the operands to bf16 changes nothing on the extended reals). -/
theorem block_entry0 (x0 : Vec Ideal S10000x3 .f32) (x1 : Vec Ideal S3x64 .f32) (p : Fin 10000) (q : Fin 64) :
    (k0_pay1 x0 x1 : S10000x64.Idx → EReal) (ix2 p q)
      = ∑ k : Fin 3, (show S10000x3.Idx → EReal from x0) (ix2 p k) * (show S3x64.Idx → EReal from x1) (ix2 k q) := by
  unfold k0_pay1
  exact PlainMatmul.matmul_zero_apply dot_S10000x3_S3x64_S10000x64_1_0_0_1_n_n.wf none
    (truncf .bf16 x0 bitsLt_bf16_f32) (truncf .bf16 x1 bitsLt_bf16_f32) p q

/-- The windows' index maps, decided over the 10 points: the row-blocked arrays are at block (t, 0), the small
    matrix at block (0, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the product of the whole arrays. -/
theorem written_block0 (c : Dev nD) (t : Fin cfg0.N) :
    (dat0 (F := Ideal) V c).flushed 2 t
      = ((cfg0.win 2).blk t).view.read (Elt Ideal) (product0 (V c main_arg0) (V c main_arg3)) := by
  show (cfg0.win 2).cut (grid0.coords t) ((dat0 (F := Ideal) V c).after 2 t) = _
  rw [after0_2]
  unfold out0_2
  rw [View.canon_unit_zero zero_offsets0]
  simp only [View.ld_unit_zero (S := S10000x3) zero_offsets0, View.ld_unit_zero (S := S3x64) zero_offsets0]
  obtain ⟨e00, e01, e10, e11, e20, e21⟩ := index_maps0 t
  funext j
  show k0_pay1 (iblk0 V c 0 t) (iblk0 V c 1 t) j
    = product0 (V c main_arg0) (V c main_arg3) (((cfg0.win 2).blk t).view.emb j)
  refine (congrArg (k0_pay1 (iblk0 V c 0 t) (iblk0 V c 1 t)) (eq_ix2 (n0 := 10000) (n1 := 64) j)).trans ?_
  refine (block_entry0 (iblk0 V c 0 t) (iblk0 V c 1 t) (j 0) (j 1)).trans ?_
  refine Finset.sum_congr rfl fun k _ => ?_
  refine congrArg₂ (fun a b : EReal => a * b) ?_ ?_
  · -- the row block's entry (p, k) is the whole array's entry (t·10000 + p, k)
    show V c main_arg0 (((cfg0.win 0).blk t).view.emb (ix2 (j 0) k))
      = V c main_arg0 (ix2 ((((cfg0.win 2).blk t).view.emb j) 0) k)
    have h0 : ((cfg0.win 0).blk t).view.emb (ix2 (j 0) k) = ix2 ((((cfg0.win 2).blk t).view.emb j) 0) k := by
      funext a; apply Fin.ext
      match a with
      | ⟨0, _⟩ => show win0_0.index t (0 : Fin 2) * 10000 + 1 * (j 0).val = win0_2.index t (0 : Fin 2) * 10000 + 1 * (j 0).val; omega
      | ⟨1, _⟩ => show win0_0.index t (1 : Fin 2) * 3 + 1 * k.val = k.val; omega
    rw [h0]; rfl
  · -- the small matrix's block is the whole matrix
    show V c main_arg3 (((cfg0.win 1).blk t).view.emb (ix2 k (j 1)))
      = V c main_arg3 (ix2 k ((((cfg0.win 2).blk t).view.emb j) 1))
    have h1 : ((cfg0.win 1).blk t).view.emb (ix2 k (j 1)) = ix2 k ((((cfg0.win 2).blk t).view.emb j) 1) := by
      funext a; apply Fin.ext
      match a with
      | ⟨0, _⟩ => show win0_1.index t (0 : Fin 2) * 3 + 1 * k.val = k.val; omega
      | ⟨1, _⟩ => show win0_1.index t (1 : Fin 2) * 64 + 1 * (j 1).val = win0_2.index t (1 : Fin 2) * 64 + 1 * (j 1).val; omega
    rw [h1]; rfl

end

/-- An index of the result array is in point t's block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every index of the result array is in the block of the point ⌊row / 10000⌋. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e00, e01, e10, e11, e20, e21⟩ := index_maps0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE RESULT ARRAY after the region is the product of the two arrays the region found, entry by entry. -/
theorem final0 (V : (c : Dev nD) → (b : Ref sig .tc) → Buf (Elt Ideal) ((c : Thread nD τ).loc b)) (c : Dev nD) :
    (dat0 (F := Ideal) V c).arrAt 2 cfg0.N = product0 (V c main_arg0) (V c main_arg3) :=
  (dat0 (F := Ideal) V c).arrAt_eq_of_cover 2 (product0 (V c main_arg0) (V c main_arg3)) (fun t _ => written_block0 V c t) covered0

/-- The same with the two arrays named: if the region found A and W, it leaves  out(i, j) = Σ_k A(i, k) · W(k, j). -/
theorem final0_of (V : (c : Dev nD) → (b : Ref sig .tc) → Buf (Elt Ideal) ((c : Thread nD τ).loc b)) (c : Dev nD)
    (A : S100000x3.Idx → EReal) (W : S3x64.Idx → EReal) (hA : V c main_arg0 = A) (hW : V c main_arg3 = W) :
    (dat0 (F := Ideal) V c).arrAt 2 cfg0.N
      = (fun i : S100000x64.Idx => ∑ k : Fin 3, A (ix2 (i 0) k) * W (ix2 k (i 1)) : S100000x64.Idx → EReal) := by
  subst hA hW
  exact final0 V c

end Cert.KernelIdeal.Blocks

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibDenseLayer.lean ====
/-
  A dense layer on a block of rows, on the extended reals.

  On one row a dense layer is  (h·W + b)_q = Σ_k h_k · W(k, q) + b_q  (`affine`), and the rectifier is the entrywise
  maximum with 0 (`relu`). A kernel body spells the layer on a block of R rows as a matrix product [R, K] × [K, N]
  accumulated into the f32 zero splat plus the bias row [1, N] laid along the R rows (`layerVec`), and the rectifier
  as the maximum with the splat of the f32 zero word (`reluVec`). At the ideal values entry (p, q) of the former is
  the affine image of row p at q (`layerVec_apply`) and an entry of the latter is the maximum with 0
  (`reluVec_apply`), for any R, K, N. `rowOf` reads a [1, N] bias row as the vector of its entries.
  Imports LibPlainMatmul.lean (the product read at an entry) and the library; nothing here mentions a program.
-/
import proofs.«106451_j44195213475900_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.DenseLayer

open Idealize.ShloMosaic Idealize.ShloMosaic.ValueIdx

/-- An affine layer on one row: `(h·W + b)_q = Σ_k h_k · W(k, q) + b_q`. -/
def affine {K N : ℕ} (h : Fin K → EReal) (W : (⟨2, ![K, N]⟩ : Shape).Idx → EReal) (b : Fin N → EReal) : Fin N → EReal :=
  fun q => (∑ k : Fin K, h k * W (ix2 k q)) + b q

/-- The rectifier, entry by entry. -/
def relu {N : ℕ} (v : Fin N → EReal) : Fin N → EReal := fun q => max (v q) 0

/-- A bias row [1, N] as the vector of its N entries. -/
def rowOf {N : ℕ} (b : (⟨2, ![1, N]⟩ : Shape).Idx → EReal) : Fin N → EReal := fun q => b (ix2 0 q)

/-- One layer on a block of R rows as a program spells it: the product into the zero splat, plus the bias row
    [1, N] laid along the R rows. -/
def layerVec {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) : FVec Ideal (⟨2, ![R, N]⟩ : Shape) .f32 :=
  addf (matmul (PlainMatmul.plain wf) none h w (constant (⟨2, ![R, N]⟩ : Shape) .f32 0x00000000#32))
    (broadcastTo (⟨2, ![R, N]⟩ : Shape) b hb)

/-- The rectifier on a vector: the maximum with the splat of the f32 zero word. -/
def reluVec {s : Shape} (v : FVec Ideal s .f32) : FVec Ideal s .f32 :=
  maximumf v (broadcast s (Scalar.ofBits (F := Ideal) .f32 0x00000000#32))

/-- Entry (p, q) of a layer: the affine image of row p, at q. -/
theorem layerVec_apply {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) (p : Fin R) (q : Fin N) :
    layerVec wf hb h w b (ix2 p q) = affine (fun k => h (ix2 p k)) w (rowOf b) q :=
  congrArg₂ (· + ·) (PlainMatmul.matmul_zero_apply wf none h w p q)
    (broadcastTo_apply b hb (ix2 p q) (ix2 0 q) fun a => by
      match a with
      | ⟨0, _⟩ => exact (if_pos rfl).symm
      | ⟨1, _⟩ =>
        show q.val = if N = 1 then 0 else q.val
        split
        · have := q.isLt; omega
        · rfl)

/-- An entry of the rectifier: the maximum with 0. -/
theorem reluVec_apply {s : Shape} (v : FVec Ideal s .f32) (i : s.Idx) : reluVec v i = max (v i) 0 := by
  show max (v i) (FloatOps.ofBits (F := Ideal) .f32 0x00000000#32) = _
  rw [Ideal.ofBits_def, Ideal.ofBits_zero_f32]

end Cert.DenseLayer

end
-- ==== Proof.BlocksCombine1.lean ====
/-
  Region 1, the first "combine": the output array after the region, as one function of the arrays the region finds.

  The region's grid has 20 points. Point t sees rows 5000·t … 5000·t + 4999 of three row-blocked operands —
  a, b : [100000, 64] and the column s : [100000, 1] —, the whole bias row r : [1, 64], and writes the same rows of the
  output [100000, 64]. On a block the body computes, entry by entry,

      max (a + b · s + r, 0),

  with the column s laid along the 64 columns and the row r laid along the 5000 rows of the block. Entry (p, q) of
  block t therefore depends on entry (p, q) of the blocks of a and b, on entry (p, 0) of the block of s and on entry
  (0, q) of r: on rows of the SAME block only, and on the un-blocked row. So what every point writes back is its block of
  ONE function of the whole arrays, `combine1`:

      combine1 a b s r (i₀, i₁) = max (a (i₀, i₁) + b (i₀, i₁) · s (i₀, 0) + r (0, i₁), 0),

  and since the 20 blocks tile the 100000 rows, the array ends holding `combine1` of the arrays found at entry.

  • `pay1_apply`, `pay1_eq`: the body's payload on a block, entry by entry.
  • `combine1`, `block_entry1`: the whole-array function, and a block's entry as its value at an index whose row and
    column entries the block's entries are.
  • `index_maps1`: the windows' block indices at point t, decided over the 20 points — the row-blocked windows sit at
    block row t, block column 0; the bias row at block (0, 0).
  • `flushed1_eq`: what point t writes back is block t of `combine1`.
  • `mem_block1`, `cover1`: row i₀ lies in the block of point i₀ / 5000, so the blocks cover the array.
  • `final1`, `final1_of`: the array after the region (over `combine1`; with the four arrays named).
-/
import proofs.«106451_j44195213475900_1_alg».proof.Proof.Gen.KernelIdeal.Frame
import proofs.«106451_j44195213475900_1_alg».proof.Proof.LibKeepdims
import proofs.«106451_j44195213475900_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

/-! ## The body on a block -/

/-- Entry (p, q) of the body's payload on a block: the entries (p, q) of the first two operands, entry (p, 0) of the
    column and entry (0, q) of the bias row, combined as max (a + b · s + r, 0). The casts to the same shape are the
    identity, the column read along a row is its row's entry, the bias row read down a column is its column's entry, and
    the maximum with the splat of the zero word is the maximum with 0. -/
theorem pay1_apply (x0 x1 : Vec Ideal S5000x64 .f32) (x2 : Vec Ideal S5000x1 .f32) (x3 : Vec Ideal S1x64 .f32)
    (p : Fin 5000) (q : Fin 64) :
    k1_pay1 x0 x1 x2 x3 (ix2 p q)
      = max ((x0 (ix2 p q) : EReal) + x1 (ix2 p q) * x2 (ix2 p (0 : Fin 1)) + x3 (ix2 (0 : Fin 1) q)) 0 := by
  unfold k1_pay1
  simp only [shapeCast_self]
  refine (Cert.DenseLayer.reluVec_apply _ (ix2 p q)).trans ?_
  rw [addf_apply, addf_apply, mulf_apply, Cert.Keepdims.broadcastTo_a1_ab_apply, broadcastTo_1b_ab_apply]

/-- The payload as a function of the block index. -/
theorem pay1_eq (x0 x1 : Vec Ideal S5000x64 .f32) (x2 : Vec Ideal S5000x1 .f32) (x3 : Vec Ideal S1x64 .f32) :
    k1_pay1 x0 x1 x2 x3 = fun j : S5000x64.Idx =>
      max ((x0 j : EReal) + x1 j * x2 (ix2 (n0 := 5000) (j 0) (0 : Fin 1)) + x3 (ix2 (n1 := 64) (0 : Fin 1) (j 1))) 0 := by
  funext j
  obtain ⟨p, q, rfl⟩ : ∃ (p : Fin 5000) (q : Fin 64), j = ix2 p q := ⟨j 0, j 1, eq_ix2 j⟩
  exact pay1_apply x0 x1 x2 x3 p q

/-! ## The result as one function of the whole arrays -/

/-- The region's result at index (i₀, i₁), from the whole arrays: max (a (i₀, i₁) + b (i₀, i₁) · s (i₀, 0) + r (0, i₁), 0). -/
def combine1 (a b : S100000x64.Idx → EReal) (s : S100000x1.Idx → EReal) (r : S1x64.Idx → EReal) : S100000x64.Idx → EReal :=
  fun i => max (a i + b i * s (ix2 (n0 := 100000) (i 0) (0 : Fin 1)) + r (ix2 (n1 := 64) (0 : Fin 1) (i 1))) 0

theorem combine1_apply (a b : S100000x64.Idx → EReal) (s : S100000x1.Idx → EReal) (r : S1x64.Idx → EReal) (i : S100000x64.Idx) :
    combine1 a b s r i
      = max (a i + b i * s (ix2 (n0 := 100000) (i 0) (0 : Fin 1)) + r (ix2 (n1 := 64) (0 : Fin 1) (i 1))) 0 := rfl

/-- An entry of a block is the entry of `combine1` at an index of the whole arrays, as soon as the four entries the body
    reads — (p, q) of the first two blocks, (p, 0) of the column's block, (0, q) of the bias row — are the whole arrays'
    entries at that index, its row's entry of the column, and its column's entry of the bias row. -/
theorem block_entry1 (a b : S100000x64.Idx → EReal) (s : S100000x1.Idx → EReal) (r : S1x64.Idx → EReal)
    (x0 x1 : Vec Ideal S5000x64 .f32) (x2 : Vec Ideal S5000x1 .f32) (x3 : Vec Ideal S1x64 .f32)
    (i : S100000x64.Idx) (j : S5000x64.Idx) (h0 : x0 j = a i) (h1 : x1 j = b i)
    (h2 : x2 (ix2 (n0 := 5000) (j 0) (0 : Fin 1)) = s (ix2 (n0 := 100000) (i 0) (0 : Fin 1)))
    (h3 : x3 (ix2 (n1 := 64) (0 : Fin 1) (j 1)) = r (ix2 (n1 := 64) (0 : Fin 1) (i 1))) :
    k1_pay1 x0 x1 x2 x3 j = combine1 a b s r i := by
  rw [pay1_eq, combine1_apply, ← h0, ← h1, ← h2, ← h3]

/-! ## The windows' blocks -/

/-- The zero offsets of an access to a whole block. -/
theorem zero_offsets1 : (![0, 0] : Fin 2 → Nat) = fun _ => 0 := funext fun a => by fin_cases a <;> rfl

/-- The printed index maps, decided over the 20 points: at point t the three row-blocked operands and the output sit at
    block row t, block column 0; the bias row at block (0, 0). -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- WHAT POINT t WRITES BACK is block t of `combine1` of the arrays as the region finds them: the blocks of the
    row-blocked operands are the same rows of their arrays as the output's block, and an entry reads its own row only. -/
theorem flushed1_eq (c : Dev nD) (t : Fin cfg1.N) :
    (dat1 (F := Ideal) V c).flushed 4 t
      = ((cfg1.win 4).blk t).view.read (Elt Ideal)
          (combine1 (V c main_v43) (V c main_v30) (V c main_v29) (V c main_v44)) := by
  show (cfg1.win 4).cut (grid1.coords t) ((dat1 (F := Ideal) V c).after 4 t) = _
  rw [after1_4]
  unfold out1_4
  rw [View.canon_unit_zero zero_offsets1]
  simp only [View.ld_unit_zero (S := S5000x64) zero_offsets1, View.ld_unit_zero (S := S5000x1) zero_offsets1,
    View.ld_unit_zero (S := S1x64) zero_offsets1]
  obtain ⟨e00, e01, e10, e11, e20, e21, e30, e31, e40, e41⟩ := index_maps1 t
  funext j
  show k1_pay1 (iblk1 V c 0 t) (iblk1 V c 1 t) (iblk1 V c 2 t) (iblk1 V c 3 t) j
    = combine1 (V c main_v43) (V c main_v30) (V c main_v29) (V c main_v44) (((cfg1.win 4).blk t).view.emb j)
  have hj0 : (j 0).val < 5000 := (j 0).isLt
  have hj1 : (j 1).val < 64 := (j 1).isLt
  refine block_entry1 (V c main_v43) (V c main_v30) (V c main_v29) (V c main_v44)
    (iblk1 V c 0 t) (iblk1 V c 1 t) (iblk1 V c 2 t) (iblk1 V c 3 t) (((cfg1.win 4).blk t).view.emb j) j ?_ ?_ ?_ ?_
  · show V c main_v43 (((cfg1.win 0).blk t).view.emb j) = V c main_v43 (((cfg1.win 4).blk t).view.emb j)
    refine congrArg (V c main_v43) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  · show V c main_v30 (((cfg1.win 1).blk t).view.emb j) = V c main_v30 (((cfg1.win 4).blk t).view.emb j)
    refine congrArg (V c main_v30) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  · show V c main_v29 (((cfg1.win 2).blk t).view.emb (ix2 (n0 := 5000) (j 0) (0 : Fin 1)))
      = V c main_v29 (ix2 (n0 := 100000) ((((cfg1.win 4).blk t).view.emb j) 0) (0 : Fin 1))
    refine congrArg (V c main_v29) (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v44 (((cfg1.win 3).blk t).view.emb (ix2 (n1 := 64) (0 : Fin 1) (j 1)))
      = V c main_v44 (ix2 (n1 := 64) (0 : Fin 1) ((((cfg1.win 4).blk t).view.emb j) 1))
    refine congrArg (V c main_v44) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega

/-! ## The blocks cover the array -/

/-- An index of the array is in point t's block iff each coordinate is in the block's range on its axis. -/
theorem mem_block1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v45).slice (win1_4.rect t)).set ↔ _
  rw [View.set_slice_whole, Rect.mem_set_unit]
  exact Iff.rfl

/-- Row i₀ lies in the block of point i₀ / 5000, which writes back: the 20 blocks cover the array. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, e40, e41⟩ := index_maps1 ⟨(i 0).val / 5000, hlt⟩
  refine ⟨⟨(i 0).val / 5000, hlt⟩, flush1_4 _, ?_⟩
  rw [mem_block1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, hlt⟩ (1 : Fin 2) * 64 ≤ (i 1).val
      ∧ (i 1).val < win1_4.index ⟨(i 0).val / 5000, hlt⟩ (1 : Fin 2) * 64 + 64
    rw [e41]
    omega

/-! ## The array after the region -/

/-- THE ARRAY after the region: `combine1` of the arrays the region found — at every index (i₀, i₁),
    max (a (i₀, i₁) + b (i₀, i₁) · s (i₀, 0) + r (0, i₁), 0). -/
theorem final1 (c : Dev nD) :
    (dat1 (F := Ideal) V c).arrAt 4 cfg1.N
      = combine1 (V c main_v43) (V c main_v30) (V c main_v29) (V c main_v44) :=
  (dat1 (F := Ideal) V c).arrAt_eq_of_cover 4
    (combine1 (V c main_v43) (V c main_v30) (V c main_v29) (V c main_v44))
    (fun t _ => flushed1_eq V c t) cover1

/-- The same, with the four arrays the region found named: if they are A, H, S, B, the array after the region is, at
    every index (i₀, i₁), max (A (i₀, i₁) + H (i₀, i₁) · S (i₀, 0) + B (0, i₁), 0). -/
theorem final1_of (c : Dev nD) (A H : S100000x64.Idx → EReal) (S : S100000x1.Idx → EReal) (B : S1x64.Idx → EReal)
    (hA : V c main_v43 = A) (hH : V c main_v30 = H) (hS : V c main_v29 = S) (hB : V c main_v44 = B) :
    (dat1 (F := Ideal) V c).arrAt 4 cfg1.N
      = (fun i : S100000x64.Idx =>
          max (A i + H i * S (ix2 (n0 := 100000) (i 0) (0 : Fin 1)) + B (ix2 (n1 := 64) (0 : Fin 1) (i 1))) 0 : S100000x64.Idx → EReal) := by
  subst hA hH hS hB
  exact final1 V c

end

end Cert.KernelIdeal.Blocks

end
-- ==== Proof.BlocksMatmul2.lean ====
/-
  Region 2: the second matrix product, by row blocks.

  The region reads the [100000, 64] array in 10 consecutive blocks of 10000 rows, and the [64, 64] matrix whole at every
  point.  At each point the body writes one block of 10000 rows of the result: the product of the point's row block by
  the small matrix, accumulated into zero, so entry (p, q) of the block is  Σ_k a(p, k) · w(k, q)  over the rows p of that
  block alone (`block_entry2`).  Row p of block t is row t·10000 + p of the whole array, the small matrix is the same at
  every point, and the 10 blocks tile the 100000 rows; hence the result array after the region is the product of the
  two whole arrays, entry by entry (`final2`):  out(i, j) = Σ_k A(i, k) · W(k, j)  (`product2`).

  `index_maps2` decides the windows' index maps over the 10 points (block t of the row-blocked arrays is block index
  (t, 0); the small matrix is always block (0, 0)); `written_block2` says what a point writes back is its block of that
  whole-array product; `mem_block2` and `covered2` say every index of the result lies in the block of the point
  ⌊row / 10000⌋.
-/
import proofs.«106451_j44195213475900_1_alg».proof.Proof.Gen.KernelIdeal.Frame
import proofs.«106451_j44195213475900_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- Zero offsets on both axes, however spelt. -/
theorem zero_offsets2 : (![0, 0] : Fin 2 → Nat) = fun _ => 0 := funext fun a => by fin_cases a <;> rfl

/-- The product of the whole arrays: out(i, j) = Σ_k A(i, k) · W(k, j). -/
def product2 (A : S100000x64.Idx → EReal) (W : S64x64.Idx → EReal) : S100000x64.Idx → EReal :=
  fun i => ∑ k : Fin 64, A (ix2 (i 0) k) * W (ix2 k (i 1))

theorem product2_apply (A : S100000x64.Idx → EReal) (W : S64x64.Idx → EReal) (i : S100000x64.Idx) :
    product2 A W i = ∑ k : Fin 64, A (ix2 (i 0) k) * W (ix2 k (i 1)) := rfl

/-- Entry (p, q) of the body's result on one block: row p of the row block against column q of the small matrix
    (the reshape to the same shape is the identity, and rounding the operands to bf16 changes nothing on the extended
    reals). -/
theorem block_entry2 (x0 : Vec Ideal S10000x64 .f32) (x1 : Vec Ideal S64x64 .f32) (p : Fin 10000) (q : Fin 64) :
    (k2_pay1 x0 x1 : S10000x64.Idx → EReal) (ix2 p q)
      = ∑ k : Fin 64, (show S10000x64.Idx → EReal from x0) (ix2 p k) * (show S64x64.Idx → EReal from x1) (ix2 k q) := by
  unfold k2_pay1
  simp only [shapeCast_self]
  exact PlainMatmul.matmul_zero_apply dot_S10000x64_S64x64_S10000x64_1_0_0_1_n_n.wf none
    (truncf .bf16 x0 bitsLt_bf16_f32) (truncf .bf16 x1 bitsLt_bf16_f32) p q

/-- The windows' index maps, decided over the 10 points: the row-blocked arrays are at block (t, 0), the small
    matrix at block (0, 0). -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What point t writes back is block t of the product of the whole arrays. -/
theorem written_block2 (c : Dev nD) (t : Fin cfg2.N) :
    (dat2 (F := Ideal) V c).flushed 2 t
      = ((cfg2.win 2).blk t).view.read (Elt Ideal) (product2 (V c main_v45) (V c main_arg5)) := by
  show (cfg2.win 2).cut (grid2.coords t) ((dat2 (F := Ideal) V c).after 2 t) = _
  rw [after2_2]
  unfold out2_2
  rw [View.canon_unit_zero zero_offsets2]
  simp only [View.ld_unit_zero (S := S10000x64) zero_offsets2, View.ld_unit_zero (S := S64x64) zero_offsets2]
  obtain ⟨e00, e01, e10, e11, e20, e21⟩ := index_maps2 t
  funext j
  show k2_pay1 (iblk2 V c 0 t) (iblk2 V c 1 t) j
    = product2 (V c main_v45) (V c main_arg5) (((cfg2.win 2).blk t).view.emb j)
  refine (congrArg (k2_pay1 (iblk2 V c 0 t) (iblk2 V c 1 t)) (eq_ix2 (n0 := 10000) (n1 := 64) j)).trans ?_
  refine (block_entry2 (iblk2 V c 0 t) (iblk2 V c 1 t) (j 0) (j 1)).trans ?_
  refine Finset.sum_congr rfl fun k _ => ?_
  refine congrArg₂ (fun a b : EReal => a * b) ?_ ?_
  · -- the row block's entry (p, k) is the whole array's entry (t·10000 + p, k)
    show V c main_v45 (((cfg2.win 0).blk t).view.emb (ix2 (j 0) k))
      = V c main_v45 (ix2 ((((cfg2.win 2).blk t).view.emb j) 0) k)
    have h0 : ((cfg2.win 0).blk t).view.emb (ix2 (j 0) k) = ix2 ((((cfg2.win 2).blk t).view.emb j) 0) k := by
      funext a; apply Fin.ext
      match a with
      | ⟨0, _⟩ => show win2_0.index t (0 : Fin 2) * 10000 + 1 * (j 0).val = win2_2.index t (0 : Fin 2) * 10000 + 1 * (j 0).val; omega
      | ⟨1, _⟩ => show win2_0.index t (1 : Fin 2) * 64 + 1 * k.val = k.val; omega
    rw [h0]; rfl
  · -- the small matrix's block is the whole matrix
    show V c main_arg5 (((cfg2.win 1).blk t).view.emb (ix2 k (j 1)))
      = V c main_arg5 (ix2 k ((((cfg2.win 2).blk t).view.emb j) 1))
    have h1 : ((cfg2.win 1).blk t).view.emb (ix2 k (j 1)) = ix2 k ((((cfg2.win 2).blk t).view.emb j) 1) := by
      funext a; apply Fin.ext
      match a with
      | ⟨0, _⟩ => show win2_1.index t (0 : Fin 2) * 64 + 1 * k.val = k.val; omega
      | ⟨1, _⟩ => show win2_1.index t (1 : Fin 2) * 64 + 1 * (j 1).val = win2_2.index t (1 : Fin 2) * 64 + 1 * (j 1).val; omega
    rw [h1]; rfl

end

/-- An index of the result array is in point t's block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Every index of the result array is in the block of the point ⌊row / 10000⌋. -/
theorem covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e00, e01, e10, e11, e20, e21⟩ := index_maps2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE RESULT ARRAY after the region is the product of the two arrays the region found, entry by entry. -/
theorem final2 (V : (c : Dev nD) → (b : Ref sig .tc) → Buf (Elt Ideal) ((c : Thread nD τ).loc b)) (c : Dev nD) :
    (dat2 (F := Ideal) V c).arrAt 2 cfg2.N = product2 (V c main_v45) (V c main_arg5) :=
  (dat2 (F := Ideal) V c).arrAt_eq_of_cover 2 (product2 (V c main_v45) (V c main_arg5)) (fun t _ => written_block2 V c t) covered2

/-- The same with the two arrays named: if the region found A and W, it leaves  out(i, j) = Σ_k A(i, k) · W(k, j). -/
theorem final2_of (V : (c : Dev nD) → (b : Ref sig .tc) → Buf (Elt Ideal) ((c : Thread nD τ).loc b)) (c : Dev nD)
    (A : S100000x64.Idx → EReal) (W : S64x64.Idx → EReal) (hA : V c main_v45 = A) (hW : V c main_arg5 = W) :
    (dat2 (F := Ideal) V c).arrAt 2 cfg2.N
      = (fun i : S100000x64.Idx => ∑ k : Fin 64, A (ix2 (i 0) k) * W (ix2 k (i 1)) : S100000x64.Idx → EReal) := by
  subst hA hW
  exact final2 V c

end Cert.KernelIdeal.Blocks

end
-- ==== Proof.BlocksCombine3.lean ====
/-
  Region 3, the second "combine": the output array after the region, as one function of the arrays the region finds.

  The region's grid has 20 points. Point t sees rows 5000·t … 5000·t + 4999 of three row-blocked operands —
  a, b : [100000, 64] and the column s : [100000, 1] —, the whole bias row r : [1, 64], and writes the same rows of the
  output [100000, 64]. On a block the body computes, entry by entry,

      a + b · s + r,

  with the column s laid along the 64 columns and the row r laid along the 5000 rows of the block. Entry (p, q) of
  block t therefore depends on entry (p, q) of the blocks of a and b, on entry (p, 0) of the block of s and on entry
  (0, q) of r: on rows of the SAME block only, and on the un-blocked row. So what every point writes back is its block of
  ONE function of the whole arrays, `combine3`:

      combine3 a b s r (i₀, i₁) = a (i₀, i₁) + b (i₀, i₁) · s (i₀, 0) + r (0, i₁),

  and since the 20 blocks tile the 100000 rows, the array ends holding `combine3` of the arrays found at entry.

  • `pay3_apply`, `pay3_eq`: the body's payload on a block, entry by entry.
  • `combine3`, `block_entry3`: the whole-array function, and a block's entry as its value at an index whose row and
    column entries the block's entries are.
  • `index_maps3`: the windows' block indices at point t, decided over the 20 points — the row-blocked windows sit at
    block row t, block column 0; the bias row at block (0, 0).
  • `flushed3_eq`: what point t writes back is block t of `combine3`.
  • `mem_block3`, `cover3`: row i₀ lies in the block of point i₀ / 5000, so the blocks cover the array.
  • `final3`, `final3_of`: the array after the region (over `combine3`; with the four arrays named).
-/
import proofs.«106451_j44195213475900_1_alg».proof.Proof.Gen.KernelIdeal.Frame
import proofs.«106451_j44195213475900_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

/-! ## The body on a block -/

/-- Entry (p, q) of the body's payload on a block: the entries (p, q) of the first two operands, entry (p, 0) of the
    column and entry (0, q) of the bias row, combined as a + b · s + r. The casts to the same shape are the identity,
    the column read along a row is its row's entry, and the bias row read down a column is its column's entry. -/
theorem pay3_apply (x0 x1 : Vec Ideal S5000x64 .f32) (x2 : Vec Ideal S5000x1 .f32) (x3 : Vec Ideal S1x64 .f32)
    (p : Fin 5000) (q : Fin 64) :
    k3_pay1 x0 x1 x2 x3 (ix2 p q)
      = (x0 (ix2 p q) : EReal) + x1 (ix2 p q) * x2 (ix2 p (0 : Fin 1)) + x3 (ix2 (0 : Fin 1) q) := by
  unfold k3_pay1
  simp only [shapeCast_self]
  rw [addf_apply, addf_apply, mulf_apply, Cert.Keepdims.broadcastTo_a1_ab_apply, broadcastTo_1b_ab_apply]

/-- The payload as a function of the block index. -/
theorem pay3_eq (x0 x1 : Vec Ideal S5000x64 .f32) (x2 : Vec Ideal S5000x1 .f32) (x3 : Vec Ideal S1x64 .f32) :
    k3_pay1 x0 x1 x2 x3 = fun j : S5000x64.Idx =>
      (x0 j : EReal) + x1 j * x2 (ix2 (n0 := 5000) (j 0) (0 : Fin 1)) + x3 (ix2 (n1 := 64) (0 : Fin 1) (j 1)) := by
  funext j
  obtain ⟨p, q, rfl⟩ : ∃ (p : Fin 5000) (q : Fin 64), j = ix2 p q := ⟨j 0, j 1, eq_ix2 j⟩
  exact pay3_apply x0 x1 x2 x3 p q

/-! ## The result as one function of the whole arrays -/

/-- The region's result at index (i₀, i₁), from the whole arrays: a (i₀, i₁) + b (i₀, i₁) · s (i₀, 0) + r (0, i₁). -/
def combine3 (a b : S100000x64.Idx → EReal) (s : S100000x1.Idx → EReal) (r : S1x64.Idx → EReal) : S100000x64.Idx → EReal :=
  fun i => a i + b i * s (ix2 (n0 := 100000) (i 0) (0 : Fin 1)) + r (ix2 (n1 := 64) (0 : Fin 1) (i 1))

theorem combine3_apply (a b : S100000x64.Idx → EReal) (s : S100000x1.Idx → EReal) (r : S1x64.Idx → EReal) (i : S100000x64.Idx) :
    combine3 a b s r i
      = a i + b i * s (ix2 (n0 := 100000) (i 0) (0 : Fin 1)) + r (ix2 (n1 := 64) (0 : Fin 1) (i 1)) := rfl

/-- An entry of a block is the entry of `combine3` at an index of the whole arrays, as soon as the four entries the body
    reads — (p, q) of the first two blocks, (p, 0) of the column's block, (0, q) of the bias row — are the whole arrays'
    entries at that index, its row's entry of the column, and its column's entry of the bias row. -/
theorem block_entry3 (a b : S100000x64.Idx → EReal) (s : S100000x1.Idx → EReal) (r : S1x64.Idx → EReal)
    (x0 x1 : Vec Ideal S5000x64 .f32) (x2 : Vec Ideal S5000x1 .f32) (x3 : Vec Ideal S1x64 .f32)
    (i : S100000x64.Idx) (j : S5000x64.Idx) (h0 : x0 j = a i) (h1 : x1 j = b i)
    (h2 : x2 (ix2 (n0 := 5000) (j 0) (0 : Fin 1)) = s (ix2 (n0 := 100000) (i 0) (0 : Fin 1)))
    (h3 : x3 (ix2 (n1 := 64) (0 : Fin 1) (j 1)) = r (ix2 (n1 := 64) (0 : Fin 1) (i 1))) :
    k3_pay1 x0 x1 x2 x3 j = combine3 a b s r i := by
  rw [pay3_eq, combine3_apply, ← h0, ← h1, ← h2, ← h3]

/-! ## The windows' blocks -/

/-- The zero offsets of an access to a whole block. -/
theorem zero_offsets3 : (![0, 0] : Fin 2 → Nat) = fun _ => 0 := funext fun a => by fin_cases a <;> rfl

/-- The printed index maps, decided over the 20 points: at point t the three row-blocked operands and the output sit at
    block row t, block column 0; the bias row at block (0, 0). -/
theorem index_maps3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section
variable (V : (c : Dev nD) → (b : Ref sig .tc) → Buf (Elt Ideal) ((c : Thread nD τ).loc b))

/-- WHAT POINT t WRITES BACK is block t of `combine3` of the arrays as the region finds them: the blocks of the
    row-blocked operands are the same rows of their arrays as the output's block, and an entry reads its own row only. -/
theorem flushed3_eq (c : Dev nD) (t : Fin cfg3.N) :
    (dat3 (F := Ideal) V c).flushed 4 t
      = ((cfg3.win 4).blk t).view.read (Elt Ideal)
          (combine3 (V c main_v59) (V c main_v46) (V c main_v29) (V c main_v60)) := by
  show (cfg3.win 4).cut (grid3.coords t) ((dat3 (F := Ideal) V c).after 4 t) = _
  rw [after3_4]
  unfold out3_4
  rw [View.canon_unit_zero zero_offsets3]
  simp only [View.ld_unit_zero (S := S5000x64) zero_offsets3, View.ld_unit_zero (S := S5000x1) zero_offsets3,
    View.ld_unit_zero (S := S1x64) zero_offsets3]
  obtain ⟨e00, e01, e10, e11, e20, e21, e30, e31, e40, e41⟩ := index_maps3 t
  funext j
  show k3_pay1 (iblk3 V c 0 t) (iblk3 V c 1 t) (iblk3 V c 2 t) (iblk3 V c 3 t) j
    = combine3 (V c main_v59) (V c main_v46) (V c main_v29) (V c main_v60) (((cfg3.win 4).blk t).view.emb j)
  have hj0 : (j 0).val < 5000 := (j 0).isLt
  have hj1 : (j 1).val < 64 := (j 1).isLt
  refine block_entry3 (V c main_v59) (V c main_v46) (V c main_v29) (V c main_v60)
    (iblk3 V c 0 t) (iblk3 V c 1 t) (iblk3 V c 2 t) (iblk3 V c 3 t) (((cfg3.win 4).blk t).view.emb j) j ?_ ?_ ?_ ?_
  · show V c main_v59 (((cfg3.win 0).blk t).view.emb j) = V c main_v59 (((cfg3.win 4).blk t).view.emb j)
    refine congrArg (V c main_v59) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  · show V c main_v46 (((cfg3.win 1).blk t).view.emb j) = V c main_v46 (((cfg3.win 4).blk t).view.emb j)
    refine congrArg (V c main_v46) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 64 + 1 * (j 1).val = win3_4.index t (1 : Fin 2) * 64 + 1 * (j 1).val; omega
  · show V c main_v29 (((cfg3.win 2).blk t).view.emb (ix2 (n0 := 5000) (j 0) (0 : Fin 1)))
      = V c main_v29 (ix2 (n0 := 100000) ((((cfg3.win 4).blk t).view.emb j) 0) (0 : Fin 1))
    refine congrArg (V c main_v29) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_v60 (((cfg3.win 3).blk t).view.emb (ix2 (n1 := 64) (0 : Fin 1) (j 1)))
      = V c main_v60 (ix2 (n1 := 64) (0 : Fin 1) ((((cfg3.win 4).blk t).view.emb j) 1))
    refine congrArg (V c main_v60) (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega

/-! ## The blocks cover the array -/

/-- An index of the array is in point t's block iff each coordinate is in the block's range on its axis. -/
theorem mem_block3 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v61).slice (win3_4.rect t)).set ↔ _
  rw [View.set_slice_whole, Rect.mem_set_unit]
  exact Iff.rfl

/-- Row i₀ lies in the block of point i₀ / 5000, which writes back: the 20 blocks cover the array. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  have hlt : (i 0).val / 5000 < cfg3.N := by rw [hN]; omega
  obtain ⟨-, -, -, -, -, -, -, -, e40, e41⟩ := index_maps3 ⟨(i 0).val / 5000, hlt⟩
  refine ⟨⟨(i 0).val / 5000, hlt⟩, flush3_4 _, ?_⟩
  rw [mem_block3]
  intro a
  match a with
  | ⟨0, _⟩ =>
    show win3_4.index ⟨(i 0).val / 5000, hlt⟩ (0 : Fin 2) * 5000 ≤ (i 0).val
      ∧ (i 0).val < win3_4.index ⟨(i 0).val / 5000, hlt⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, hlt⟩ (1 : Fin 2) * 64 ≤ (i 1).val
      ∧ (i 1).val < win3_4.index ⟨(i 0).val / 5000, hlt⟩ (1 : Fin 2) * 64 + 64
    rw [e41]
    omega

/-! ## The array after the region -/

/-- THE ARRAY after the region: `combine3` of the arrays the region found — at every index (i₀, i₁),
    a (i₀, i₁) + b (i₀, i₁) · s (i₀, 0) + r (0, i₁). -/
theorem final3 (c : Dev nD) :
    (dat3 (F := Ideal) V c).arrAt 4 cfg3.N
      = combine3 (V c main_v59) (V c main_v46) (V c main_v29) (V c main_v60) :=
  (dat3 (F := Ideal) V c).arrAt_eq_of_cover 4
    (combine3 (V c main_v59) (V c main_v46) (V c main_v29) (V c main_v60))
    (fun t _ => flushed3_eq V c t) cover3

/-- The same, with the four arrays the region found named: if they are A, H, S, B, the array after the region is, at
    every index (i₀, i₁), A (i₀, i₁) + H (i₀, i₁) · S (i₀, 0) + B (0, i₁). -/
theorem final3_of (c : Dev nD) (A H : S100000x64.Idx → EReal) (S : S100000x1.Idx → EReal) (B : S1x64.Idx → EReal)
    (hA : V c main_v59 = A) (hH : V c main_v46 = H) (hS : V c main_v29 = S) (hB : V c main_v60 = B) :
    (dat3 (F := Ideal) V c).arrAt 4 cfg3.N
      = (fun i : S100000x64.Idx =>
          A i + H i * S (ix2 (n0 := 100000) (i 0) (0 : Fin 1)) + B (ix2 (n1 := 64) (0 : Fin 1) (i 1)) : S100000x64.Idx → EReal) := by
  subst hA hH hS hB
  exact final3 V c

end

end Cert.KernelIdeal.Blocks

end
-- ==== Proof.BlocksLinear4.lean ====
/-
  Region 4: the final linear layer, in one piece.

  The region runs at one point and every window is its whole array: a [512, 64] matrix P, a [64, 5] matrix W and a
  [1, 5] bias row B.  The body writes the whole [512, 5] result: the product of P by W accumulated into zero, plus the
  bias row laid along the 512 rows, so entry (p, q) is  Σ_k P(p, k) · W(k, q) + B(0, q)  (`block_entry4`).  The one
  block is the whole array on every window (every index map is constantly (0, 0): `index_maps4`), so the result array
  after the region is that affine image of the arrays the region found, entry by entry (`final4`, `affine4`).

  `written_block4` says what the point writes back is the (whole) block of that function; `mem_block4` and
  `covered4` say every index of the result lies in that one block.
-/
import proofs.«106451_j44195213475900_1_alg».proof.Proof.Gen.KernelIdeal.Frame
import proofs.«106451_j44195213475900_1_alg».proof.Proof.LibPlainMatmul
import proofs.«106451_j44195213475900_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- Zero offsets on both axes, however spelt. -/
theorem zero_offsets4 : (![0, 0] : Fin 2 → Nat) = fun _ => 0 := funext fun a => by fin_cases a <;> rfl

/-- The layer on the whole arrays: out(i, j) = Σ_k P(i, k) · W(k, j) + B(0, j). -/
def affine4 (P : S512x64.Idx → EReal) (W : S64x5.Idx → EReal) (B : S1x5.Idx → EReal) : S512x5.Idx → EReal :=
  fun i => (∑ k : Fin 64, P (ix2 (i 0) k) * W (ix2 k (i 1))) + B (ix2 (0 : Fin 1) (i 1))

theorem affine4_apply (P : S512x64.Idx → EReal) (W : S64x5.Idx → EReal) (B : S1x5.Idx → EReal) (i : S512x5.Idx) :
    affine4 P W B i = (∑ k : Fin 64, P (ix2 (i 0) k) * W (ix2 k (i 1))) + B (ix2 (0 : Fin 1) (i 1)) := rfl

/-- Entry (p, q) of the body's result: row p of the left matrix against column q of the right one, plus entry q of the
    bias row (the reshapes to the same shape are the identity, and rounding the operands to bf16 changes nothing on the
    extended reals). -/
theorem block_entry4 (x0 : Vec Ideal S512x64 .f32) (x1 : Vec Ideal S64x5 .f32) (x2 : Vec Ideal S1x5 .f32) (p : Fin 512) (q : Fin 5) :
    (k4_pay1 x0 x1 x2 : S512x5.Idx → EReal) (ix2 p q)
      = (∑ k : Fin 64, (show S512x64.Idx → EReal from x0) (ix2 p k) * (show S64x5.Idx → EReal from x1) (ix2 k q))
        + (show S1x5.Idx → EReal from x2) (ix2 (0 : Fin 1) q) := by
  unfold k4_pay1
  simp only [shapeCast_self]
  exact DenseLayer.layerVec_apply dot_S512x64_S64x5_S512x5_1_0_0_1_n_n.wf broadcasts_S1x5_S512x5
    x0 x1 x2 p q

/-- The windows' index maps, decided over the one point: every window is at block (0, 0). -/
theorem index_maps4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

section
variable (V : (c : Dev nD) → (b : Ref sig .tc) → Buf (Elt Ideal) ((c : Thread nD τ).loc b))

/-- What the point writes back is the block of the layer on the whole arrays. -/
theorem written_block4 (c : Dev nD) (t : Fin cfg4.N) :
    (dat4 (F := Ideal) V c).flushed 3 t
      = ((cfg4.win 3).blk t).view.read (Elt Ideal) (affine4 (V c main_v73) (V c main_arg7) (V c main_v74)) := by
  show (cfg4.win 3).cut (grid4.coords t) ((dat4 (F := Ideal) V c).after 3 t) = _
  rw [after4_3]
  unfold out4_3
  rw [View.canon_unit_zero zero_offsets4]
  simp only [View.ld_unit_zero (S := S512x64) zero_offsets4, View.ld_unit_zero (S := S64x5) zero_offsets4,
    View.ld_unit_zero (S := S1x5) zero_offsets4]
  obtain ⟨e00, e01, e10, e11, e20, e21, e30, e31⟩ := index_maps4 t
  funext j
  show k4_pay1 (iblk4 V c 0 t) (iblk4 V c 1 t) (iblk4 V c 2 t) j
    = affine4 (V c main_v73) (V c main_arg7) (V c main_v74) (((cfg4.win 3).blk t).view.emb j)
  refine (congrArg (k4_pay1 (iblk4 V c 0 t) (iblk4 V c 1 t) (iblk4 V c 2 t)) (eq_ix2 (n0 := 512) (n1 := 5) j)).trans ?_
  refine (block_entry4 (iblk4 V c 0 t) (iblk4 V c 1 t) (iblk4 V c 2 t) (j 0) (j 1)).trans ?_
  refine congrArg₂ (fun a b : EReal => a + b) ?_ ?_
  · refine Finset.sum_congr rfl fun k _ => ?_
    refine congrArg₂ (fun a b : EReal => a * b) ?_ ?_
    · -- the left matrix's block is the whole matrix
      show V c main_v73 (((cfg4.win 0).blk t).view.emb (ix2 (j 0) k))
        = V c main_v73 (ix2 ((((cfg4.win 3).blk t).view.emb j) 0) k)
      have h0 : ((cfg4.win 0).blk t).view.emb (ix2 (j 0) k) = ix2 ((((cfg4.win 3).blk t).view.emb j) 0) k := by
        funext a; apply Fin.ext
        match a with
        | ⟨0, _⟩ => show win4_0.index t (0 : Fin 2) * 512 + 1 * (j 0).val = win4_3.index t (0 : Fin 2) * 512 + 1 * (j 0).val; omega
        | ⟨1, _⟩ => show win4_0.index t (1 : Fin 2) * 64 + 1 * k.val = k.val; omega
      rw [h0]; rfl
    · -- the right matrix's block is the whole matrix
      show V c main_arg7 (((cfg4.win 1).blk t).view.emb (ix2 k (j 1)))
        = V c main_arg7 (ix2 k ((((cfg4.win 3).blk t).view.emb j) 1))
      have h1 : ((cfg4.win 1).blk t).view.emb (ix2 k (j 1)) = ix2 k ((((cfg4.win 3).blk t).view.emb j) 1) := by
        funext a; apply Fin.ext
        match a with
        | ⟨0, _⟩ => show win4_1.index t (0 : Fin 2) * 64 + 1 * k.val = k.val; omega
        | ⟨1, _⟩ => show win4_1.index t (1 : Fin 2) * 5 + 1 * (j 1).val = win4_3.index t (1 : Fin 2) * 5 + 1 * (j 1).val; omega
      rw [h1]; rfl
  · -- the bias row's block is the whole row
    show V c main_v74 (((cfg4.win 2).blk t).view.emb (ix2 (0 : Fin 1) (j 1)))
      = V c main_v74 (ix2 (0 : Fin 1) ((((cfg4.win 3).blk t).view.emb j) 1))
    have h2 : ((cfg4.win 2).blk t).view.emb (ix2 (0 : Fin 1) (j 1)) = ix2 (0 : Fin 1) ((((cfg4.win 3).blk t).view.emb j) 1) := by
      funext a; apply Fin.ext
      match a with
      | ⟨0, _⟩ => show win4_2.index t (0 : Fin 2) * 1 + 1 * (0 : Fin 1).val = (0 : Fin 1).val; omega
      | ⟨1, _⟩ => show win4_2.index t (1 : Fin 2) * 5 + 1 * (j 1).val = win4_3.index t (1 : Fin 2) * 5 + 1 * (j 1).val; omega
    exact @congrArg S1x5.Idx EReal _ _ (V c main_v74) h2

end

/-- An index of the result array is in the point's block iff each coordinate is in the block's range on its axis. -/
theorem mem_block4 (t : Fin cfg4.N) (i : S512x5.Idx) :
    i ∈ ((cfg4.win 3).blk t).view.set ↔ ∀ a : Fin 2, win4_3.index t a * S512x5.size a ≤ (i a).val ∧ (i a).val < win4_3.index t a * S512x5.size a + S512x5.size a := by
  show i ∈ ((View.whole main_v75).slice (win4_3.rect t)).set ↔ _
  rw [View.set_slice_whole, Rect.mem_set_unit]
  exact Iff.rfl

/-- Every index of the result array is in the one point's block. -/
theorem covered4 (i : S512x5.Idx) :
    ∃ t : Fin cfg4.N, (cfg4.win 3).flush t = true ∧ i ∈ ((cfg4.win 3).blk t).view.set := by
  have hi0 : (i 0).val < 512 := (i 0).isLt
  have hi1 : (i 1).val < 5 := (i 1).isLt
  have hN : cfg4.N = 1 := N_4
  obtain ⟨t, ht⟩ : ∃ t : Fin cfg4.N, t.val = 0 := ⟨⟨0, by rw [hN]; omega⟩, rfl⟩
  obtain ⟨e00, e01, e10, e11, e20, e21, e30, e31⟩ := index_maps4 t
  refine ⟨t, flush4_3 t, ?_⟩
  rw [mem_block4]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 5 ≤ (i 1).val ∧ (i 1).val < win4_3.index t (1 : Fin 2) * 5 + 5; omega

/-- THE RESULT ARRAY after the region is the layer applied to the arrays the region found, entry by entry. -/
theorem final4 (V : (c : Dev nD) → (b : Ref sig .tc) → Buf (Elt Ideal) ((c : Thread nD τ).loc b)) (c : Dev nD) :
    (dat4 (F := Ideal) V c).arrAt 3 cfg4.N = affine4 (V c main_v73) (V c main_arg7) (V c main_v74) :=
  (dat4 (F := Ideal) V c).arrAt_eq_of_cover 3 (affine4 (V c main_v73) (V c main_arg7) (V c main_v74))
    (fun t _ => written_block4 V c t) covered4

/-- The same with the three arrays named: if the region found P, W and B, it leaves
    out(i, j) = Σ_k P(i, k) · W(k, j) + B(0, j). -/
theorem final4_of (V : (c : Dev nD) → (b : Ref sig .tc) → Buf (Elt Ideal) ((c : Thread nD τ).loc b)) (c : Dev nD)
    (P : S512x64.Idx → EReal) (W : S64x5.Idx → EReal) (B : S1x5.Idx → EReal)
    (hP : V c main_v73 = P) (hW : V c main_arg7 = W) (hB : V c main_v74 = B) :
    (dat4 (F := Ideal) V c).arrAt 3 cfg4.N
      = (fun i : S512x5.Idx => (∑ k : Fin 64, P (ix2 (i 0) k) * W (ix2 k (i 1))) + B (ix2 (0 : Fin 1) (i 1)) : S512x5.Idx → EReal) := by
  subst hP hW hB
  exact final4 V c

end Cert.KernelIdeal.Blocks

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.LibHostAffine.lean ====
/-
  A host affine layer and a host relu on the extended reals, read at an entry.

  jnp writes  y @ W + b  as a `dot_general` of an [n, K] by a [K, N] matrix plus the bias vector [N] laid along the rows by
  two broadcasts ([N] to [1, N] to [n, N]); read at (p, q) that is  Σ_k y(p, k) · W(k, q) + b(q).  And  maximum(y, 0.0)  is a
  `maximum` against the scalar zero broadcast to y's shape; read at an index it is  max (y i) 0.  Nothing here mentions a
  program: the product's record is taken in its literal plain form.
-/
import proofs.«106451_j44195213475900_1_alg».proof.Proof.LibPlainMatmul
import proofs.«106451_j44195213475900_1_alg».proof.Proof.LibVecBcast

noncomputable section

namespace Cert.HostAffine

open Idealize.ShloMosaic Idealize.ShloMosaic.ValueIdx

/-- Entry (p, q) of  y @ W + b  on the host:  Σ_k y(p, k) · W(k, q) + b(q). -/
theorem affine_apply {n K N : ℕ} {φ₁ φ₂ : FTy}
    (wf : DotDims.WF (⟨2, ![n, K]⟩ : Shape) (⟨2, ![K, N]⟩ : Shape) (⟨2, ![n, N]⟩ : Shape) [1] [0] [0] [1] [] [])
    (h1 : (⟨1, ![N]⟩ : Shape).BroadcastsInDim ⟨2, ![1, N]⟩ ![1])
    (h2 : (⟨2, ![1, N]⟩ : Shape).BroadcastsInDim ⟨2, ![n, N]⟩ ![0, 1])
    (y : FVec Ideal (⟨2, ![n, K]⟩ : Shape) φ₁) (W : FVec Ideal (⟨2, ![K, N]⟩ : Shape) φ₂)
    (b : FVec Ideal (⟨1, ![N]⟩ : Shape) .f32) (p : Fin n) (q : Fin N) :
    addf (Host.dotGeneral (Cert.PlainMatmul.plain wf) none y W)
        (broadcastInDim ⟨2, ![n, N]⟩ ![0, 1] h2 (broadcastInDim ⟨2, ![1, N]⟩ ![1] h1 b)) (ix2 p q)
      = (∑ k : Fin K, y (ix2 p k) * W (ix2 k q)) + b (ix1 q) := by
  rw [addf_apply, Cert.VecBcast.rowVec_bcast_apply]
  exact congrArg (· + b (ix1 q)) (Cert.PlainMatmul.dotGeneral_apply wf none .single y W p q)

/-- maximum(y, 0.0) on the host at an index:  max (y i) 0. -/
theorem relu_apply {s : Shape} (h : (⟨0, ![]⟩ : Shape).BroadcastsInDim s ![]) (y : FVec Ideal s .f32) (i : s.Idx) :
    maximumf y (broadcastInDim s ![] h (constant (F := Ideal) ⟨0, ![]⟩ .f32 0x00000000#32)) i = max (y i) 0 := by
  rw [maximumf_apply, broadcastInDim_apply ![] h _ i ix0 (fun a => a.elim0), constant_apply, Ideal.ofBits_zero_f32]

end Cert.HostAffine

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.LibEntrywiseHost.lean ====
/-
  Whole-array forms of three layer pieces on the extended reals, against the host's spelling.

  A kernel tiled over rows leaves an array described entry by entry: a product  Σ_k l(p, k) · r(k, q);  a product plus a bias
  that reached the kernel as a one-row matrix (a vector [N] reshaped to [1, N]);  and a "combine"  a + h · s + b  in which
  the per-row scale s reached the kernel as a column (a vector [n] reshaped to [n, 1]) and the bias b as a one-row matrix.
  jnp spells the same arrays with whole-array operations: a `dot_general`;  a `dot_general` plus the bias sent [N] → [1, N] →
  [n, N] by two broadcasts;  and  a + h * s[:, None] + b  with s sent [n] → [n, 1] → [n, d] and b sent [d] → [1, d] → [n, d],
  optionally followed by  maximum(·, 0).  Each lemma says the entry-by-entry array IS the host's, for any sizes; nothing here
  mentions a program.
-/
import proofs.«106451_j44195213475900_1_alg».proof.Proof.LibPlainMatmul
import proofs.«106451_j44195213475900_1_alg».proof.Proof.LibHostAffine
import proofs.«106451_j44195213475900_1_alg».proof.Proof.LibVecBcast
import proofs.«106451_j44195213475900_1_alg».proof.Proof.LibKeepdims
import proofs.«106451_j44195213475900_1_alg».proof.Proof.LibRowVector

noncomputable section

open scoped BigOperators

namespace Cert.EntrywiseHost

open Idealize.ShloMosaic Idealize.ShloMosaic.ValueIdx

/-- The array of entries Σ_k A(p, k) · W(k, q) is the host's `dot_general` of A and W. -/
theorem product_eq_dotGeneral {m K n : ℕ}
    (wf : DotDims.WF (⟨2, ![m, K]⟩ : Shape) (⟨2, ![K, n]⟩ : Shape) (⟨2, ![m, n]⟩ : Shape) [1] [0] [0] [1] [] [])
    (A : FVec Ideal (⟨2, ![m, K]⟩ : Shape) .f32) (W : FVec Ideal (⟨2, ![K, n]⟩ : Shape) .f32) :
    (fun i : (⟨2, ![m, n]⟩ : Shape).Idx => ∑ k : Fin K, A (ix2 (i 0) k) * W (ix2 k (i 1)))
      = Host.dotGeneral (Cert.PlainMatmul.plain wf) none A W := by
  funext i
  obtain ⟨p, q, rfl⟩ : ∃ (p : Fin m) (q : Fin n), i = ix2 p q := ⟨i 0, i 1, eq_ix2 i⟩
  exact (Cert.PlainMatmul.dotGeneral_apply wf none .single A W p q).symm

/-- Σ_k P(p, k) · W(k, q) + b(q), the bias read from its one-row matrix, is the host's  P @ W + b. -/
theorem affine_eq_host {n K N : ℕ}
    (wf : DotDims.WF (⟨2, ![n, K]⟩ : Shape) (⟨2, ![K, N]⟩ : Shape) (⟨2, ![n, N]⟩ : Shape) [1] [0] [0] [1] [] [])
    (hc : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![n, N]⟩ ![0, 1])
    (P : FVec Ideal (⟨2, ![n, K]⟩ : Shape) .f32) (W : FVec Ideal (⟨2, ![K, N]⟩ : Shape) .f32)
    (b : FVec Ideal (⟨1, ![N]⟩ : Shape) .f32) :
    (fun i : (⟨2, ![n, N]⟩ : Shape).Idx =>
        (∑ k : Fin K, P (ix2 (i 0) k) * W (ix2 k (i 1))) + shapeCast ⟨2, ![1, N]⟩ b hc (ix2 (0 : Fin 1) (i 1)))
      = addf (Host.dotGeneral (Cert.PlainMatmul.plain wf) none P W)
          (broadcastInDim ⟨2, ![n, N]⟩ ![0, 1] h2 (broadcastInDim ⟨2, ![1, N]⟩ ![1] h1 b)) := by
  funext i
  obtain ⟨p, q, rfl⟩ : ∃ (p : Fin n) (q : Fin N), i = ix2 p q := ⟨i 0, i 1, eq_ix2 i⟩
  refine Eq.trans ?_ (Cert.HostAffine.affine_apply wf h1 h2 P W b p q).symm
  exact congrArg (fun t => (∑ k : Fin K, P (ix2 p k) * W (ix2 k q)) + t) (Cert.RowVector.shapeCast_b_1b_apply b hc 0 q)

/-- a + h · s + b, the row scale read from its column and the bias from its one-row matrix, is the host's
    a + h * s[:, None] + b. -/
theorem combine_eq_host {n d : ℕ}
    (hcs : (⟨1, ![n]⟩ : Shape).ShapeCasts ⟨2, ![n, 1]⟩) (hcb : (⟨1, ![d]⟩ : Shape).ShapeCasts ⟨2, ![1, d]⟩)
    (hs1 : (⟨1, ![n]⟩ : Shape).BroadcastsInDim ⟨2, ![n, 1]⟩ ![0])
    (hs2 : (⟨2, ![n, 1]⟩ : Shape).BroadcastsInDim ⟨2, ![n, d]⟩ ![0, 1])
    (hb1 : (⟨1, ![d]⟩ : Shape).BroadcastsInDim ⟨2, ![1, d]⟩ ![1])
    (hb2 : (⟨2, ![1, d]⟩ : Shape).BroadcastsInDim ⟨2, ![n, d]⟩ ![0, 1])
    (a h : FVec Ideal (⟨2, ![n, d]⟩ : Shape) .f32) (s : FVec Ideal (⟨1, ![n]⟩ : Shape) .f32)
    (b : FVec Ideal (⟨1, ![d]⟩ : Shape) .f32) :
    (fun i : (⟨2, ![n, d]⟩ : Shape).Idx =>
        a i + h i * shapeCast ⟨2, ![n, 1]⟩ s hcs (ix2 (i 0) (0 : Fin 1)) + shapeCast ⟨2, ![1, d]⟩ b hcb (ix2 (0 : Fin 1) (i 1)))
      = addf (addf a (mulf h (broadcastInDim ⟨2, ![n, d]⟩ ![0, 1] hs2 (broadcastInDim ⟨2, ![n, 1]⟩ ![0] hs1 s))))
          (broadcastInDim ⟨2, ![n, d]⟩ ![0, 1] hb2 (broadcastInDim ⟨2, ![1, d]⟩ ![1] hb1 b)) := by
  funext i
  obtain ⟨p, q, rfl⟩ : ∃ (p : Fin n) (q : Fin d), i = ix2 p q := ⟨i 0, i 1, eq_ix2 i⟩
  show a (ix2 p q) + h (ix2 p q) * shapeCast ⟨2, ![n, 1]⟩ s hcs (ix2 p (0 : Fin 1)) + shapeCast ⟨2, ![1, d]⟩ b hcb (ix2 (0 : Fin 1) q)
    = a (ix2 p q) + h (ix2 p q) * broadcastInDim ⟨2, ![n, d]⟩ ![0, 1] hs2 (broadcastInDim ⟨2, ![n, 1]⟩ ![0] hs1 s) (ix2 p q)
      + broadcastInDim ⟨2, ![n, d]⟩ ![0, 1] hb2 (broadcastInDim ⟨2, ![1, d]⟩ ![1] hb1 b) (ix2 p q)
  rw [Cert.Keepdims.shapeCast_a_a1_apply s hcs p 0, Cert.RowVector.shapeCast_b_1b_apply b hcb 0 q,
    Cert.VecBcast.colVec_bcast_apply hs1 hs2 s p q, Cert.VecBcast.rowVec_bcast_apply hb1 hb2 b p q]

/-- The same followed by the rectifier: max(a + h · s + b, 0) is the host's  maximum(a + h * s[:, None] + b, 0.0). -/
theorem combine_relu_eq_host {n d : ℕ}
    (hcs : (⟨1, ![n]⟩ : Shape).ShapeCasts ⟨2, ![n, 1]⟩) (hcb : (⟨1, ![d]⟩ : Shape).ShapeCasts ⟨2, ![1, d]⟩)
    (hs1 : (⟨1, ![n]⟩ : Shape).BroadcastsInDim ⟨2, ![n, 1]⟩ ![0])
    (hs2 : (⟨2, ![n, 1]⟩ : Shape).BroadcastsInDim ⟨2, ![n, d]⟩ ![0, 1])
    (hb1 : (⟨1, ![d]⟩ : Shape).BroadcastsInDim ⟨2, ![1, d]⟩ ![1])
    (hb2 : (⟨2, ![1, d]⟩ : Shape).BroadcastsInDim ⟨2, ![n, d]⟩ ![0, 1])
    (hz : (⟨0, ![]⟩ : Shape).BroadcastsInDim ⟨2, ![n, d]⟩ ![])
    (a h : FVec Ideal (⟨2, ![n, d]⟩ : Shape) .f32) (s : FVec Ideal (⟨1, ![n]⟩ : Shape) .f32)
    (b : FVec Ideal (⟨1, ![d]⟩ : Shape) .f32) :
    (fun i : (⟨2, ![n, d]⟩ : Shape).Idx =>
        max (a i + h i * shapeCast ⟨2, ![n, 1]⟩ s hcs (ix2 (i 0) (0 : Fin 1)) + shapeCast ⟨2, ![1, d]⟩ b hcb (ix2 (0 : Fin 1) (i 1))) 0)
      = maximumf (addf (addf a (mulf h (broadcastInDim ⟨2, ![n, d]⟩ ![0, 1] hs2 (broadcastInDim ⟨2, ![n, 1]⟩ ![0] hs1 s))))
          (broadcastInDim ⟨2, ![n, d]⟩ ![0, 1] hb2 (broadcastInDim ⟨2, ![1, d]⟩ ![1] hb1 b)))
          (broadcastInDim ⟨2, ![n, d]⟩ ![] hz (constant (F := Ideal) ⟨0, ![]⟩ .f32 0x00000000#32)) := by
  funext i
  rw [Cert.HostAffine.relu_apply hz _ i, ← combine_eq_host hcs hcb hs1 hs2 hb1 hb2 a h s b]

end Cert.EntrywiseHost

end
-- ==== Proof.Bridge.lean ====
/-
  The kernel's result buffer, walked back to the reference's stages.

  The value the kernel's run leaves in its result buffer is a fold over @main's nine segments.  Reading it backwards: the last
  pallas call leaves pooled · Wl + bl of what it found; the stretch before it leaves the mean pool of the second layer; the
  second combine leaves agg2 + h2' · d² + b2; and so on down to the first product x · W1.  At each step the buffers a segment
  reads are identified with the reference's stages of the same launch arguments: a host stretch is the same named function
  on both sides, a matrix product is Σ_k l(p, k) · r(k, q) on both sides, and a combine is read entry by entry against the
  reference's additions and broadcasts (the self-loop scale d · d enters the kernel as a column [n, 1] and the bias as a row
  [1, 64]; at (p, q) they read d(p) · d(p) and b(q), as the reference's two-step broadcasts do).
-/
import proofs.«106451_j44195213475900_1_alg».proof.Proof.Gen.KernelIdeal.Frame
import proofs.«106451_j44195213475900_1_alg».proof.Proof.Gen.ReferenceIdeal.Read
import proofs.«106451_j44195213475900_1_alg».proof.Proof.Stages
import proofs.«106451_j44195213475900_1_alg».proof.Proof.KernelKept
import proofs.«106451_j44195213475900_1_alg».proof.Proof.KernelHost
import proofs.«106451_j44195213475900_1_alg».proof.Proof.RefStages
import proofs.«106451_j44195213475900_1_alg».proof.Proof.BlocksMatmul0
import proofs.«106451_j44195213475900_1_alg».proof.Proof.BlocksCombine1
import proofs.«106451_j44195213475900_1_alg».proof.Proof.BlocksMatmul2
import proofs.«106451_j44195213475900_1_alg».proof.Proof.BlocksCombine3
import proofs.«106451_j44195213475900_1_alg».proof.Proof.BlocksLinear4
import proofs.«106451_j44195213475900_1_alg».proof.Proof.LibEntrywiseHost
import Idealize.ShloMosaic.Lib.ValueIdx

set_option maxRecDepth 16384

noncomputable section

namespace Cert.Bridge

open Cert.KernelIdeal Cert.KernelIdeal.Gen Cert.KernelIdeal.Stage
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The launch contents of the nine arguments, as the reference's stages take them. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)
abbrev x7 (c : Dev nD) := m ((c : Thread nD τ).loc main_arg7)
abbrev x8 (c : Dev nD) := m ((c : Thread nD τ).loc main_arg8)

/-! ## Layer 1 -/

/-- After the first pallas call the feature buffer holds x · W1, the reference's first product: entry (p, q) of both is
    Σ_k x(p, k) · W1(k, q). -/
theorem h_eq (c : Dev nD) :
    W2 m ρ c (Proc.devRef .tc main_v30) = Cert.ReferenceIdeal.Read.val_main_v13 (F := Ideal) (x0 m c) (x3 m c) :=
  (W2_arr m ρ c 2).trans ((Cert.KernelIdeal.Blocks.final0_of (V1 m ρ) c (x0 m c) (x3 m c)
      (Cert.KernelIdeal.Kept.W1_arg0 m ρ c) (Cert.KernelIdeal.Kept.W1_arg3 m ρ c)).trans
    ((Cert.EntrywiseHost.product_eq_dotGeneral Cert.ReferenceIdeal.dot_S100000x3_S3x64_S100000x64_1_0_0_1_n_n.wf (x0 m c) (x3 m c)).trans rfl))

/-- The first aggregate is the reference's: the same gather, product and scatter-add of equal operands. -/
theorem agg1_eq (c : Dev nD) :
    W3 m ρ c (Proc.devRef .tc main_v43) = Cert.ReferenceIdeal.Read.val_main_v41 (F := Ideal) (x0 m c) (x1 m c) (x3 m c) := by
  rw [Cert.KernelIdeal.HostStretch.agg1_eq, Cert.KernelIdeal.Kept.W2_v1_W1, Cert.KernelIdeal.HostStretch.src_eq,
    Cert.KernelIdeal.Kept.W2_v3_W1, Cert.KernelIdeal.HostStretch.dst_eq, Cert.KernelIdeal.Kept.W2_v27_W1,
    Cert.KernelIdeal.HostStretch.norm_eq, h_eq]
  exact (Cert.RefStage.agg1_eq (x0 m c) (x1 m c) (x3 m c)).symm

theorem bias1_eq (c : Dev nD) :
    W3 m ρ c (Proc.devRef .tc main_v44) = shapeCast S1x64 (x4 m c) shapeCasts_S64_S1x64 := by
  rw [Cert.KernelIdeal.HostStretch.bias1_eq, Cert.KernelIdeal.Kept.W2_arg4]

/-- After the first combine the hidden buffer holds relu(agg + h · (d · d) + b1), the reference's first layer. -/
theorem h1_eq (c : Dev nD) :
    W4 m ρ c (Proc.devRef .tc main_v45) = Cert.ReferenceIdeal.Read.val_main_v50 (F := Ideal) (x0 m c) (x1 m c) (x3 m c) (x4 m c) := by
  have e43 : V3 m ρ c main_v43 = Cert.ReferenceIdeal.Read.val_main_v41 (F := Ideal) (x0 m c) (x1 m c) (x3 m c) := agg1_eq m ρ c
  have e30 : V3 m ρ c main_v30 = Cert.ReferenceIdeal.Read.val_main_v13 (F := Ideal) (x0 m c) (x3 m c) :=
    (Cert.KernelIdeal.Kept.W3_v30_W2 m ρ c).trans (h_eq m ρ c)
  have e29 : V3 m ρ c main_v29 = shapeCast S100000x1 (selfScale (edgeDst (x1 m c))) shapeCasts_S100000_S100000x1 :=
    (Cert.KernelIdeal.Kept.W3_v29_W1 m ρ c).trans (Cert.KernelIdeal.HostStretch.scale_eq m ρ c)
  have e44 : V3 m ρ c main_v44 = shapeCast S1x64 (x4 m c) shapeCasts_S64_S1x64 := bias1_eq m ρ c
  refine (W4_arr m ρ c 4).trans ((Cert.KernelIdeal.Blocks.final1_of (V3 m ρ) c _ _ _ _ e43 e30 e29 e44).trans ?_)
  refine (Cert.EntrywiseHost.combine_relu_eq_host shapeCasts_S100000_S100000x1 shapeCasts_S64_S1x64
    Cert.ReferenceIdeal.Gen.bcast_S100000_S100000x1_0 Cert.ReferenceIdeal.Gen.bcast_S100000x1_S100000x64_0_1 Cert.ReferenceIdeal.Gen.bcast_S64_S1x64_1
    Cert.ReferenceIdeal.Gen.bcast_S1x64_S100000x64_0_1 Cert.ReferenceIdeal.Gen.bcast_S_S100000x64
    (Cert.ReferenceIdeal.Read.val_main_v41 (F := Ideal) (x0 m c) (x1 m c) (x3 m c)) (Cert.ReferenceIdeal.Read.val_main_v13 (F := Ideal) (x0 m c) (x3 m c))
    (selfScale (edgeDst (x1 m c))) (x4 m c)).trans ?_
  rw [← Cert.RefStage.scale1_eq]
  rfl

/-! ## Layer 2 -/

/-- After the second matmul call the buffer holds h1 · W2, the reference's second product. -/
theorem h2pre_eq (c : Dev nD) :
    W5 m ρ c (Proc.devRef .tc main_v46) = Cert.ReferenceIdeal.Read.val_main_v51 (F := Ideal) (x0 m c) (x1 m c) (x3 m c) (x4 m c) (x5 m c) :=
  (W5_arr m ρ c 2).trans ((Cert.KernelIdeal.Blocks.final2_of (V4 m ρ) c _ (x5 m c)
      (h1_eq m ρ c) (Cert.KernelIdeal.Kept.W4_arg5 m ρ c)).trans
    ((Cert.EntrywiseHost.product_eq_dotGeneral Cert.ReferenceIdeal.dot_S100000x64_S64x64_S100000x64_1_0_0_1_n_n.wf
      (Cert.ReferenceIdeal.Read.val_main_v50 (F := Ideal) (x0 m c) (x1 m c) (x3 m c) (x4 m c)) (x5 m c)).trans rfl))

theorem agg2_eq (c : Dev nD) :
    W6 m ρ c (Proc.devRef .tc main_v59) = Cert.ReferenceIdeal.Read.val_main_v79 (F := Ideal) (x0 m c) (x1 m c) (x3 m c) (x4 m c) (x5 m c) := by
  rw [Cert.KernelIdeal.HostStretch.agg2_eq, Cert.KernelIdeal.Kept.W5_v1_W1, Cert.KernelIdeal.HostStretch.src_eq,
    Cert.KernelIdeal.Kept.W5_v3_W1, Cert.KernelIdeal.HostStretch.dst_eq, Cert.KernelIdeal.Kept.W5_v27_W1,
    Cert.KernelIdeal.HostStretch.norm_eq, h2pre_eq]
  exact (Cert.RefStage.agg2_eq (x0 m c) (x1 m c) (x3 m c) (x4 m c) (x5 m c)).symm

theorem bias2_eq (c : Dev nD) :
    W6 m ρ c (Proc.devRef .tc main_v60) = shapeCast S1x64 (x6 m c) shapeCasts_S64_S1x64 := by
  rw [Cert.KernelIdeal.HostStretch.bias2_eq, Cert.KernelIdeal.Kept.W5_arg6]

/-- After the second combine the buffer holds agg2 + h2' · (d · d) + b2, the reference's second layer. -/
theorem h2_eq (c : Dev nD) :
    W7 m ρ c (Proc.devRef .tc main_v61) = Cert.ReferenceIdeal.Read.val_main_v87 (F := Ideal) (x0 m c) (x1 m c) (x3 m c) (x4 m c) (x5 m c) (x6 m c) := by
  have e59 : V6 m ρ c main_v59 = Cert.ReferenceIdeal.Read.val_main_v79 (F := Ideal) (x0 m c) (x1 m c) (x3 m c) (x4 m c) (x5 m c) := agg2_eq m ρ c
  have e46 : V6 m ρ c main_v46 = Cert.ReferenceIdeal.Read.val_main_v51 (F := Ideal) (x0 m c) (x1 m c) (x3 m c) (x4 m c) (x5 m c) :=
    (Cert.KernelIdeal.Kept.W6_v46_W5 m ρ c).trans (h2pre_eq m ρ c)
  have e29 : V6 m ρ c main_v29 = shapeCast S100000x1 (selfScale (edgeDst (x1 m c))) shapeCasts_S100000_S100000x1 :=
    (Cert.KernelIdeal.Kept.W6_v29_W1 m ρ c).trans (Cert.KernelIdeal.HostStretch.scale_eq m ρ c)
  have e60 : V6 m ρ c main_v60 = shapeCast S1x64 (x6 m c) shapeCasts_S64_S1x64 := bias2_eq m ρ c
  refine (W7_arr m ρ c 4).trans ((Cert.KernelIdeal.Blocks.final3_of (V6 m ρ) c _ _ _ _ e59 e46 e29 e60).trans ?_)
  refine (Cert.EntrywiseHost.combine_eq_host shapeCasts_S100000_S100000x1 shapeCasts_S64_S1x64
    Cert.ReferenceIdeal.Gen.bcast_S100000_S100000x1_0 Cert.ReferenceIdeal.Gen.bcast_S100000x1_S100000x64_0_1 Cert.ReferenceIdeal.Gen.bcast_S64_S1x64_1
    Cert.ReferenceIdeal.Gen.bcast_S1x64_S100000x64_0_1
    (Cert.ReferenceIdeal.Read.val_main_v79 (F := Ideal) (x0 m c) (x1 m c) (x3 m c) (x4 m c) (x5 m c)) (Cert.ReferenceIdeal.Read.val_main_v51 (F := Ideal) (x0 m c) (x1 m c) (x3 m c) (x4 m c) (x5 m c))
    (selfScale (edgeDst (x1 m c))) (x6 m c)).trans ?_
  rw [← Cert.RefStage.scale2_eq]
  rfl

/-! ## The pool and the classifier -/

theorem pool_eq (c : Dev nD) :
    W8 m ρ c (Proc.devRef .tc main_v73) = Cert.ReferenceIdeal.Read.val_main_v99 (F := Ideal) (x0 m c) (x1 m c) (x2 m c) (x3 m c) (x4 m c) (x5 m c) (x6 m c) := by
  rw [Cert.KernelIdeal.HostStretch.pool_eq, Cert.KernelIdeal.Kept.W7_arg2, h2_eq]
  exact (Cert.RefStage.pool_eq (x0 m c) (x1 m c) (x2 m c) (x3 m c) (x4 m c) (x5 m c) (x6 m c)).symm

theorem bias3_eq (c : Dev nD) :
    W8 m ρ c (Proc.devRef .tc main_v74) = shapeCast S1x5 (x8 m c) shapeCasts_S5_S1x5 := by
  rw [Cert.KernelIdeal.HostStretch.bias3_eq, Cert.KernelIdeal.Kept.W7_arg8]

/-- The kernel's result is the reference's: pooled · Wl + bl, entry by entry. -/
theorem result_eq (c : Dev nD) :
    W9 m ρ c (Proc.devRef .tc main_v75) = Cert.ReferenceIdeal.Read.val_main_v103 (F := Ideal) (x0 m c) (x1 m c) (x2 m c) (x3 m c) (x4 m c) (x5 m c) (x6 m c) (x7 m c) (x8 m c) :=
  (W9_arr m ρ c 3).trans ((Cert.KernelIdeal.Blocks.final4_of (V8 m ρ) c _ (x7 m c) _
      (pool_eq m ρ c) (Cert.KernelIdeal.Kept.W8_arg7 m ρ c) (bias3_eq m ρ c)).trans
    ((Cert.EntrywiseHost.affine_eq_host Cert.ReferenceIdeal.dot_S512x64_S64x5_S512x5_1_0_0_1_n_n.wf shapeCasts_S5_S1x5
      Cert.ReferenceIdeal.Gen.bcast_S5_S1x5_1 Cert.ReferenceIdeal.Gen.bcast_S1x5_S512x5_0_1
      (Cert.ReferenceIdeal.Read.val_main_v99 (F := Ideal) (x0 m c) (x1 m c) (x2 m c) (x3 m c) (x4 m c) (x5 m c) (x6 m c)) (x7 m c) (x8 m c)).trans rfl))

end Cert.Bridge

end
-- ==== Proof.lean ====
/-
  A two-layer graph convolution with mean pooling and a linear classifier: the kernel against its jnp reference, on the
  extended reals.

  Both programs compute, for node features x, an edge list and graph ids,
      d   = (in-degree + 1)^(-1/2),            norm(e) = d[src e] · d[dst e],
      h   = x · W1,                            h1 = relu(Σ_{e → v} h[src e] · norm(e) + h · d² + b1),
      h2' = h1 · W2,                           h2 = Σ_{e → v} h2'[src e] · norm(e) + h2' · d² + b2,
      out = meanpool_by_graph(h2) · Wl + bl.
  The kernel runs the three products and the two combines as pallas calls over row blocks of the node axis (the products on
  operands rounded to bf16, which changes no value on the extended reals) and everything else as host operations; the
  reference is host operations throughout.  The two agree stage by stage: a product is Σ_k l(p, k) · r(k, q) on both sides
  whatever its tiling; a combine is the same sum of three terms entry by entry (the self-loop scale and the bias reach the
  kernel as a column and a row, the reference broadcasts them); the gathers, scatters and the pool are the same operations of
  equal operands.  No law beyond reading each operation at an entry is needed, so the finiteness of the inputs is never used.

  The kernel's run names its result as the value of a fold over @main's nine segments (KernelRun); that value is walked back
  segment by segment to the reference's stages (Bridge, over KernelKept, KernelHost, RefStages and the per-call block
  modules); the reference's run is its generated reading.
-/
import proofs.«106451_j44195213475900_1_alg».proof.Defs
import proofs.«106451_j44195213475900_1_alg».proof.Proof.Gen.Kernel
import proofs.«106451_j44195213475900_1_alg».proof.Proof.Gen.Kernel.Frame
import proofs.«106451_j44195213475900_1_alg».proof.Proof.Gen.KernelIdeal
import proofs.«106451_j44195213475900_1_alg».proof.Proof.Gen.KernelIdeal.Frame
import proofs.«106451_j44195213475900_1_alg».proof.Proof.Gen.ReferenceIdeal
import proofs.«106451_j44195213475900_1_alg».proof.Proof.Gen.ReferenceIdeal.Run
import proofs.«106451_j44195213475900_1_alg».proof.Proof.Gen.ReferenceIdeal.Read
import proofs.«106451_j44195213475900_1_alg».proof.Proof.Gen.Pre_finite_inputs
import proofs.«106451_j44195213475900_1_alg».proof.Proof.KernelRun
import proofs.«106451_j44195213475900_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs run, and the kernel's result buffer ends at the reference's
    last stage of the (equal) arguments. -/
theorem algebraic : Cert.algebraic_KernelIdeal_ReferenceIdeal := by
  intro m ρ m' ρ' _ hagree
  refine ⟨fun c => Cert.KernelIdeal.Gen.W9 m ρ c (Proc.devRef .tc Cert.KernelIdeal.main_v75),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
